-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096 : Shape := ⟨1, ![4096]⟩
abbrev S16384x256 : Shape := ⟨2, ![16384, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096 : S_.BroadcastsInDim S4096 (![] : Fin 0 → Fin S4096.rank)
  reducesTo_S4096_S_d0 : S4096.ReducesTo [0] S_
  bcast_S_S16384x256 : S_.BroadcastsInDim S16384x256 (![] : Fin 0 → Fin S16384x256.rank)
  reducesTo_S16384x256_S_d0_1 : S16384x256.ReducesTo [0, 1] S_

variable [Facts]

def fn_part1 {F : FTy → Type} [FloatOps F] (main_arg1 : FVec F S4096 .f32) (main_v13 : IVec S_ 1) (main_v16 : IVec S16384x256 1) : IVec S_ 1 :=
  let main_c_5 : IVec S_ 1 := constantI S_ 1 1#1
  let main_v17 : IVec S_ 1 := (fun x v => Host.reduce IntOp.andi x v reducesTo_S16384x256_S_d0_1 h_S_) main_v16 main_c_5
  let main_v18 : IVec S_ 1 := andi main_v13 main_v17
  let main_v19 : FVec F S4096 .f32 := Host.absf main_arg1
  let main_cst_6 : FVec F S_ .f32 := constant S_ .f32 0x00000000#32
  let main_v20 : FVec F S4096 .f32 := broadcastInDim S4096 ![] bcast_S_S4096 main_cst_6
  let main_v21 : IVec S4096 1 := cmpf .ogt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4096x256 .f32) (main_arg1 : FVec F S4096 .f32) (main_arg2 : FVec F S16384x256 .f32) (main_arg3 : FVec F S16384x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S16384x256 .f32 := Host.absf main_arg2
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  let main_v14 : FVec F S16384x256 .f32 := Host.absf main_arg3
  let main_cst_4 : FVec F S_ .f32 := constant S_ .f32 0x7F800000#32
  let main_v15 : FVec F S16384x256 .f32 := broadcastInDim S16384x256 ![] bcast_S_S16384x256 main_cst_4
  let main_v16 : IVec S16384x256 1 := cmpf .olt main_v14 main_v15
  fn_part1 (F := F) main_arg1 main_v13 main_v16
-- ==== Kernel.lean ====
abbrev S4096x256 : Shape := ⟨2, ![4096, 256]⟩
abbrev S4096 : Shape := ⟨1, ![4096]⟩
abbrev S16384x256 : Shape := ⟨2, ![16384, 256]⟩
abbrev S_ : Shape := ⟨0, ![]⟩
abbrev S4096x1 : Shape := ⟨2, ![4096, 1]⟩
abbrev S16384 : Shape := ⟨1, ![16384]⟩
abbrev S1x16384 : Shape := ⟨2, ![1, 16384]⟩
abbrev S1024x256 : Shape := ⟨2, ![1024, 256]⟩
abbrev S1024x1 : Shape := ⟨2, ![1024, 1]⟩
abbrev S1x1024 : Shape := ⟨2, ![1, 1024]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 24
  | .vmem => 15
  | .smem => 0
  | _ => 0

abbrev bufTy : (tb : Table) → Fin (tcTables nBuf tb) → BufTy
  | .hbm, ⟨0, _⟩ => ⟨S4096x256, .f32⟩
  | .hbm, ⟨1, _⟩ => ⟨S4096, .f32⟩
  | .hbm, ⟨2, _⟩ => ⟨S16384x256, .f32⟩
  | .hbm, ⟨3, _⟩ => ⟨S16384x256, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096x1, .f32⟩
  | .hbm, ⟨15, _⟩ => ⟨S4096x256, .f32⟩
  | .hbm, ⟨16, _⟩ => ⟨S4096x256, .f32⟩
  | .hbm, ⟨17, _⟩ => ⟨S4096x1, .f32⟩
  | .hbm, ⟨18, _⟩ => ⟨S16384x256, .f32⟩
  | .hbm, ⟨19, _⟩ => ⟨S_, .f32⟩
  | .hbm, ⟨20, _⟩ => ⟨S16384, .f32⟩
  | .hbm, ⟨21, _⟩ => ⟨S1x16384, .f32⟩
  | .hbm, ⟨22, _⟩ => ⟨S16384x256, .bf16⟩
  | .hbm, ⟨23, _⟩ => ⟨S4096x256, .f32⟩
  | .local _ .vmem, ⟨0, _⟩ => ⟨S1024x256, .f32⟩
  | .local _ .vmem, ⟨1, _⟩ => ⟨S1024x256, .f32⟩
  | .local _ .vmem, ⟨2, _⟩ => ⟨S1024x1, .f32⟩
  | .local _ .vmem, ⟨3, _⟩ => ⟨S1024x1, .f32⟩
  | .local _ .vmem, ⟨4, _⟩ => ⟨S1024x256, .f32⟩
  | .local _ .vmem, ⟨5, _⟩ => ⟨S1024x256, .f32⟩
  | .local _ .vmem, ⟨6, _⟩ => ⟨S1x1024, .f32⟩
  | .local _ .vmem, ⟨7, _⟩ => ⟨S1x1024, .f32⟩
  | .local _ .vmem, ⟨8, _⟩ => ⟨S1024x256, .bf16⟩
  | .local _ .vmem, ⟨9, _⟩ => ⟨S1024x256, .bf16⟩
  | .local _ .vmem, ⟨10, _⟩ => ⟨S1024x256, .f32⟩
  | .local _ .vmem, ⟨11, _⟩ => ⟨S1024x256, .f32⟩
  | .local _ .vmem, ⟨12, _⟩ => ⟨S1024x1, .f32⟩
  | .local _ .vmem, ⟨13, _⟩ => ⟨S1024x1, .f32⟩
  | .local _ .vmem, ⟨14, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v48 : BitVec 1 := Scalar.cmpi .eq arg1 c15_i32
  let v49 : BitVec 32 := Scalar.extui v48
  let c0_i32_27 : BitVec 32 := 0#32
  let v50 : BitVec 1 := Scalar.cmpi .ne v49 c0_i32_27
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  shapeCasts_S4096_S4096x1 : S4096.ShapeCasts S4096x1
  reducesTo_S16384x256_S16384_d1 : S16384x256.ReducesTo [1] S16384
  h_S_ : 0 < S_.numel
  shapeCasts_S16384_S1x16384 : S16384.ShapeCasts S1x16384
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1024x256_p1_0_S256x1024 : S1024x256.Transposes [1, 0] S256x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x256 : S1024x1.Broadcasts S1024x256
  dot_S1024x256_S256x1024_S1024x1024_1_0_0_1_n_n_wf : DotDims.WF S1024x256 S256x1024 S1024x1024 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S4096x1.size a
  hwx0_1 : ∀ i : grid0.Coords, EltTy.bits .f32 = 32 ∨ (Rect.block (s := S4096x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S16384x256.size a
  hwx0_2 : ∀ i : grid0.Coords, EltTy.bits .f32 = 32 ∨ (Rect.block (s := S16384x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S16384x256.size a
  hwx0_4 : ∀ i : grid0.Coords, EltTy.bits .bf16 = 32 ∨ (Rect.block (s := S16384x256) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S4096x256.size a
  hwx0_5 : ∀ i : grid0.Coords, EltTy.bits .f32 = 32 ∨ (Rect.block (s := S4096x256) S1024x256.size (cc0_transform_5 i) (hinb0_5 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v9) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x256 : Shape := ⟨2, ![4096, 256]⟩
abbrev S4096 : Shape := ⟨1, ![4096]⟩
abbrev S16384x256 : Shape := ⟨2, ![16384, 256]⟩
abbrev S_ : Shape := ⟨0, ![]⟩
abbrev S4096x1 : Shape := ⟨2, ![4096, 1]⟩
abbrev S16384 : Shape := ⟨1, ![16384]⟩
abbrev S256x16384 : Shape := ⟨2, ![256, 16384]⟩
abbrev S4096x16384 : Shape := ⟨2, ![4096, 16384]⟩
abbrev S1x16384 : Shape := ⟨2, ![1, 16384]⟩

abbrev nBuf : Space → Nat
  | .hbm => 44
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096, .f32⟩
  | .hbm, ⟨2, _⟩ => ⟨S16384x256, .f32⟩
  | .hbm, ⟨3, _⟩ => ⟨S16384x256, .f32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S16384x256, .f32⟩
  | .hbm, ⟨9, _⟩ => ⟨S_, .f32⟩
  | .hbm, ⟨10, _⟩ => ⟨S16384, .f32⟩
  | .hbm, ⟨11, _⟩ => ⟨S256x16384, .f32⟩
  | .hbm, ⟨12, _⟩ => ⟨S4096x16384, .f32⟩
  | .hbm, ⟨13, _⟩ => ⟨S1x16384, .f32⟩
  | .hbm, ⟨14, _⟩ => ⟨S4096x16384, .f32⟩
  | .hbm, ⟨15, _⟩ => ⟨S4096x16384, .f32⟩
  | .hbm, ⟨16, _⟩ => ⟨S4096x16384, .f32⟩
  | .hbm, ⟨17, _⟩ => ⟨S_, .f32⟩
  | .hbm, ⟨18, _⟩ => ⟨S4096x16384, .f32⟩
  | .hbm, ⟨19, _⟩ => ⟨S4096x16384, .f32⟩
  | .hbm, ⟨20, _⟩ => ⟨S4096x16384, .f32⟩
  | .hbm, ⟨21, _⟩ => ⟨S4096x16384, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x16384, .f32⟩
  | .hbm, ⟨28, _⟩ => ⟨S4096x16384, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S4096x16384, .f32⟩
  | .hbm, ⟨36, _⟩ => ⟨S4096x16384, .f32⟩
  | .hbm, ⟨37, _⟩ => ⟨S4096x16384, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x16384, .f32⟩
  | .hbm, ⟨42, _⟩ => ⟨S4096x16384, .f32⟩
  | .hbm, ⟨43, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  reducesTo_S16384x256_S16384_d1 : S16384x256.ReducesTo [1] S16384
  transposes_S16384x256_S256x16384_1_0 : S16384x256.Transposes [1, 0] S256x16384
  bcast_S16384_S1x16384_1 : S16384.BroadcastsInDim S1x16384 (![1] : Fin 1 → Fin S1x16384.rank)
  bcast_S4096x1_S4096x16384_0_1 : S4096x1.BroadcastsInDim S4096x16384 (![0, 1] : Fin 2 → Fin S4096x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  bcast_S_S4096x1 : S_.BroadcastsInDim S4096x1 (![] : Fin 0 → Fin S4096x1.rank)
  reducesTo_S4096x16384_S4096_d1 : S4096x16384.ReducesTo [1] S4096
  bcast_S_S4096 : S_.BroadcastsInDim S4096 (![] : Fin 0 → Fin S4096.rank)
  dot_S4096x256_S256x16384_S4096x16384_1_0_0_1_n_n_wf : DotDims.WF S4096x256 S256x16384 S4096x16384 [1] [0] [0] [1] [] []
  dot_S4096x16384_S16384x256_S4096x256_1_0_0_1_n_n_wf : DotDims.WF S4096x16384 S16384x256 S4096x256 [1] [0] [0] [1] [] []

variable [Facts₀]

def dot_S4096x256_S256x16384_S4096x16384_1_0_0_1_n_n : DotDims S4096x256 S256x16384 S4096x16384 where
  lhsContracting := [1]
  rhsContracting := [0]
  lhsNonContracting := [0]
  rhsNonContracting := [1]
  lhsBatch := []
  rhsBatch := []
  wf := dot_S4096x256_S256x16384_S4096x16384_1_0_0_1_n_n_wf
def dot_S4096x16384_S16384x256_S4096x256_1_0_0_1_n_n : DotDims S4096x16384 S16384x256 S4096x256 where
  lhsContracting := [1]
  rhsContracting := [0]
  lhsNonContracting := [0]
  rhsNonContracting := [1]
  lhsBatch := []
  rhsBatch := []
  wf := dot_S4096x16384_S16384x256_S4096x256_1_0_0_1_n_n_wf

class Facts : Prop extends Facts₀ where

variable [Facts]
-- ==== Proof.Spec.lean ====
/-
  Gaussian-kernel weighted means (Nadaraya–Watson regression), written twice over plain index functions into the
  extended reals.

  Row `n` of the result is the mean of the rows `src k` weighted by the softmax, over `k`, of the logits
  `-‖q n - t k‖² / (2 σ n ²)`.

  * `refOut` spells it as the direct program does: the squared distance by its expansion
    `‖q‖² + ‖t‖² - 2 q·t`, the logits divided by `2 σ²`, a softmax normalised entry by entry, then the weighted sum.
  * `kerOut` spells it as the tiled program does: the query pre-scaled by `2 s` with `s = 1 / (2 σ σ)`, the
    row-constant term `s ‖q‖²` of the logit dropped, and the 16384 columns folded in 16 blocks of 1024 through a
    running maximum `m`, a running normaliser `l` and a running weighted sum `a`, rescaled by
    `exp (m_old - m_new)` at each block; the quotient `a / l` is taken once, after the last block.

  Every operation is the extended reals' own (`Ideal.div`, `Ideal.exp`, `max`, `+`, `*`, `-`), in the order
  and grouping the programs apply them, so that each program's result can be identified with its spelling here by
  rewriting alone; that the two spellings agree on real inputs with `σ ≠ 0` is a separate statement.
-/
import Idealize.ShloMosaic.PureOps.Ideal
import Mathlib.Algebra.BigOperators.Fin

noncomputable section

namespace Cert.KernelMean

open Idealize.ShloMosaic
open scoped BigOperators

/-! ### The float words the programs carry, at their ideal values -/

/-- `2.0` -/
def two : EReal := Ideal.ofBits .f32 0x40000000#32
/-- `1.0` -/
def one : EReal := Ideal.ofBits .f32 0x3F800000#32
/-- `0.0` -/
def zero : EReal := Ideal.ofBits .f32 0x00000000#32
/-- `-∞`, the initial value of both programs' maximum reductions -/
def negInf : EReal := Ideal.ofBits .f32 0xFF800000#32
/-- the large negative FINITE number the tiled program starts its running maximum from -/
def floor0 : EReal := Ideal.ofBits .f32 0xFF333332#32

variable (q : Fin 4096 → Fin 256 → EReal) (sd : Fin 4096 → EReal) (src tgt : Fin 16384 → Fin 256 → EReal)

/-- Column `1024 j + k`: entry `k` of column block `j`. -/
def col (j : Fin 16) (k : Fin 1024) : Fin 16384 :=
  ⟨j.val * 1024 + k.val, by have := j.isLt; have := k.isLt; omega⟩

/-- `‖t k‖²`, as both programs sum it: `0 + Σ_d t k d · t k d`. -/
def tsq (k : Fin 16384) : EReal := zero + ∑ d : Fin 256, tgt k d * tgt k d

/-! ### The tiled program -/

/-- `s n = 1 / ((2 σ n) σ n)`. -/
def scale (n : Fin 4096) : EReal := Ideal.div one ((two * sd n) * sd n)

/-- The pre-scaled query, `q n d · (2 s n)`. -/
def qs (n : Fin 4096) (d : Fin 256) : EReal := q n d * (two * scale sd n)

/-- The tiled program's logit, `Σ_d qs n d · t k d - s n · ‖t k‖²`. -/
def logit (n : Fin 4096) (k : Fin 16384) : EReal :=
  (∑ d : Fin 256, qs q sd n d * tgt k d) - scale sd n * tsq tgt k

/-- The running state of one row: maximum, normaliser, weighted sum. -/
structure St where
  m : EReal
  l : EReal
  a : Fin 256 → EReal

/-- What the first column block finds. -/
def init : St := ⟨floor0, zero, fun _ => zero⟩

/-- Column block `j` folded into row `n`'s running state. -/
def step (n : Fin 4096) (j : Fin 16) (s : St) : St :=
  { m := max s.m ((Finset.univ : Finset (Fin 1024)).fold max negInf (fun k => logit q sd tgt n (col j k)))
    l := Ideal.exp (s.m - max s.m ((Finset.univ : Finset (Fin 1024)).fold max negInf (fun k => logit q sd tgt n (col j k)))) * s.l
          + ∑ k : Fin 1024, Ideal.exp (logit q sd tgt n (col j k)
              - max s.m ((Finset.univ : Finset (Fin 1024)).fold max negInf (fun k => logit q sd tgt n (col j k))))
    a := fun e =>
      Ideal.exp (s.m - max s.m ((Finset.univ : Finset (Fin 1024)).fold max negInf (fun k => logit q sd tgt n (col j k)))) * s.a e
          + ∑ k : Fin 1024, Ideal.exp (logit q sd tgt n (col j k)
              - max s.m ((Finset.univ : Finset (Fin 1024)).fold max negInf (fun k => logit q sd tgt n (col j k)))) * src (col j k) e }

/-- Column block number `j mod 16`. -/
def blk (j : ℕ) : Fin 16 := ⟨j % 16, Nat.mod_lt _ (by norm_num)⟩

/-- Row `n`'s state after column blocks `0 … j`. -/
def run (n : Fin 4096) : ℕ → St
  | 0 => step q sd src tgt n (blk 0) init
  | j + 1 => step q sd src tgt n (blk (j + 1)) (run n j)

/-- The tiled program's result: the weighted sum over the normaliser, after the last block. -/
def kerOut (n : Fin 4096) (e : Fin 256) : EReal :=
  Ideal.div ((run q sd src tgt n 15).a e) ((run q sd src tgt n 15).l)

/-! ### The direct program -/

/-- `‖q n‖²`: `0 + Σ_d q n d · q n d`. -/
def qsq (n : Fin 4096) : EReal := zero + ∑ d : Fin 256, q n d * q n d

/-- `q n · t k`. -/
def cross (n : Fin 4096) (k : Fin 16384) : EReal := ∑ d : Fin 256, q n d * tgt k d

/-- The squared distance by its expansion, `(‖q n‖² + ‖t k‖²) - 2 (q n · t k)`. -/
def dist (n : Fin 4096) (k : Fin 16384) : EReal := (qsq q n + tsq tgt k) - two * cross q tgt n k

/-- The direct program's logit, `(-dist) / (2 (σ n · σ n))`. -/
def refLogit (n : Fin 4096) (k : Fin 16384) : EReal := Ideal.div (-(dist q tgt n k)) (two * (sd n * sd n))

/-- The row maximum the softmax subtracts: `max (-∞) (fold of max from -∞)`. -/
def refMax (n : Fin 4096) : EReal :=
  max negInf ((Finset.univ : Finset (Fin 16384)).fold max negInf (fun k => refLogit q sd tgt n k))

/-- The shifted exponentials. -/
def refE (n : Fin 4096) (k : Fin 16384) : EReal := Ideal.exp (refLogit q sd tgt n k - refMax q sd tgt n)

/-- Their row sum, `0 + Σ_k`. -/
def refL (n : Fin 4096) : EReal := zero + ∑ k : Fin 16384, refE q sd tgt n k

/-- The direct program's result: the weights normalised entry by entry, then the weighted sum. -/
def refOut (n : Fin 4096) (e : Fin 256) : EReal :=
  ∑ k : Fin 16384, Ideal.div (refE q sd tgt n k) (refL q sd tgt n) * src k e

end Cert.KernelMean

end
-- ==== Proof.Args.lean ====
/-
  Vocabulary shared by the kernel-side modules: the four argument arrays of one core as index functions, the global
  row and column a grid point's block entry sits at, and the array the kernel's result is claimed to be.

  Grid point `t` (of 64, row-major over a 4 × 16 grid) works on row block `t / 16` and column block `t % 16`; entry `r`
  of its row block is global row `(t / 16) · 1024 + r`, entry `k` of its column block global column `(t % 16) · 1024 + k`.
-/
import proofs.«103823_j66314295050701_2_alg».proof.Proof.Gen.KernelIdeal.Launch
import proofs.«103823_j66314295050701_2_alg».proof.Proof.Spec
import Idealize.ShloMosaic.Lib.ValueIdx

noncomputable section

namespace Cert.KernelIdeal.Args

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- The queries. -/
abbrev argQ : Fin 4096 → Fin 256 → EReal :=
  fun n d => (m ((c : Thread nD τ).loc main_arg0) : S4096x256.Idx → EReal) (ix2 n d)
/-- The bandwidths. -/
abbrev argSd : Fin 4096 → EReal :=
  fun n => (m ((c : Thread nD τ).loc main_arg1) : S4096.Idx → EReal) (ix1 n)
/-- The source rows. -/
abbrev argSrc : Fin 16384 → Fin 256 → EReal :=
  fun k e => (m ((c : Thread nD τ).loc main_arg2) : S16384x256.Idx → EReal) (ix2 k e)
/-- The target rows. -/
abbrev argTgt : Fin 16384 → Fin 256 → EReal :=
  fun k d => (m ((c : Thread nD τ).loc main_arg3) : S16384x256.Idx → EReal) (ix2 k d)

/-- Global row of entry `r` of grid point `t`'s row block. -/
def rowOf (t : Fin cfg0.N) (r : Fin 1024) : Fin 4096 :=
  ⟨t.val / 16 * 1024 + r.val, by
    have h1 := t.isLt; have hN : cfg0.N = 64 := N_0; have h2 := r.isLt; omega⟩

/-- Global column of entry `k` of grid point `t`'s column block. -/
def colOf (t : Fin cfg0.N) (k : Fin 1024) : Fin 16384 := Cert.KernelMean.col (Cert.KernelMean.blk t.val) k

theorem rowOf_val (t : Fin cfg0.N) (r : Fin 1024) : (rowOf t r).val = t.val / 16 * 1024 + r.val := rfl
theorem colOf_val (t : Fin cfg0.N) (k : Fin 1024) : (colOf t k).val = t.val % 16 * 1024 + k.val := rfl

/-- The result array: the tiled spelling of the weighted mean, of this core's arguments. -/
def result : S4096x256.Idx → EReal := fun i =>
  Cert.KernelMean.kerOut (argQ m c) (argSd m c) (argSrc m c) (argTgt m c) ⟨(i 0).val, (i 0).isLt⟩ ⟨(i 1).val, (i 1).isLt⟩

theorem result_ix2 (n : Fin 4096) (e : Fin 256) :
    result m c (ix2 n e) = Cert.KernelMean.kerOut (argQ m c) (argSd m c) (argSrc m c) (argTgt m c) n e := rfl

end Cert.KernelIdeal.Args

end
-- ==== Proof.Pieces.lean ====
/-
  What one grid point leaves behind, as pure functions of what it finds.

  A grid point (row block i, column block j) loads its five input blocks — the pre-scaled queries, the scales s, the
  targets, their squared norms, the sources — and the three running quantities of the row block (maximum, normaliser,
  weighted sum), and stores the three updated quantities; at j = 0 it first resets them (a large negative finite
  number, zero, zero), at j = 15 it also stores the quotient of the updated weighted sum by the updated normaliser
  into the output block. Each lemma below identifies what a point leaves in one buffer with the corresponding
  arithmetic term of the kernel body, at any float instance.
-/
import proofs.«103823_j66314295050701_2_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

/-- A whole-buffer access starts at the origin. -/
theorem hz : (![0, 0] : Fin 2 → Nat) = fun _ => 0 := funext fun a => by fin_cases a <;> rfl

variable (c : Dev nD) (i : grid0.Coords) (arg2 : Memref sig .tc .vmem S1024x256 .f32) (harg2 : arg2.IsWhole) (arg3 : Memref sig .tc .vmem S1024x1 .f32) (harg3 : arg3.IsWhole) (arg4 : Memref sig .tc .vmem S1024x256 .f32) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole)
  (x0 : Vec F S1024x256 .f32) (x1 : Vec F S1024x1 .f32) (x2 : Vec F S1024x256 .f32) (x3 : Vec F S1x1024 .f32) (x4 : Vec F S1024x256 .bf16)
  (xs0 xs1 : Vec F S1024x1 .f32) (xs2 : Vec F S1024x256 .f32)

/-- At a row block's first column block the running maximum is left at the maximum of the starting value and the block's row maxima. -/
theorem max_first (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 x4 = k0_pay2 (k0_pay8 x0 x2 x1 x3 k0_pay4) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.canon_cons_unit_zero (S := S1024x1) hz, View.canon_cons_unit_zero (S := S1024x256) hz,
    View.canon_unit_zero (S := S1024x1) hz, View.canon_unit_zero (S := S1024x256) hz,
    View.readCov_unit_zero (S := S1024x1) _ hz, View.readCov_unit_zero (S := S1024x256) _ hz,
    View.readAt_eq_ld, harg2.read_unread, harg3.read_unread, harg4.read_unread, harg5.read_unread, harg6.read_unread,
    harg8.read_unread, harg9.read_unread, harg10.read_unread,
    View.ld_unit_zero (S := S1024x256) hz, View.ld_unit_zero (S := S1024x1) hz, View.ld_unit_zero (S := S1x1024) hz]

/-- At the first column block the normaliser is left at the rescaled zero plus the block's row sums of exponentials. -/
theorem norm_first (hc0 : cond0_0 i) (hc1 : ¬cond0_1 i) :
    sout0_A_1 c i arg2 harg2 arg3 harg3 arg4 harg4 arg5 harg5 arg6 harg6 arg7 harg7 arg8 harg8 arg9 harg9 arg10 harg10 hc0 hc1 x0 x1 x2 x3 x4 = k0_pay11 x0 x2 x1 x3 k0_pay4 k0_pay4 k0_pay5 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.canon_cons_unit_zero (S := S1024x1) hz, View.canon_cons_unit_zero (S := S1024x256) hz,
    View.canon_unit_zero (S := S1024x1) hz, View.canon_unit_zero (S := S1024x256) hz,
    View.readCov_unit_zero (S := S1024x1) _ hz, View.readCov_unit_zero (S := S1024x256) _ hz,
    View.readAt_eq_ld, harg2.read_unread, harg3.read_unread, harg4.read_unread, harg5.read_unread, harg6.read_unread,
    harg8.read_unread, harg9.read_unread, harg10.read_unread,
    View.ld_unit_zero (S := S1024x256) hz, View.ld_unit_zero (S := S1024x1) hz, View.ld_unit_zero (S := S1x1024) hz]

/-- At the first column block the weighted sum is left at the rescaled zero plus the block's weights times the source rows. -/
theorem wsum_first (hc0 : cond0_0 i) (hc1 : ¬cond0_1 i) :
    sout0_A_2 c i arg2 harg2 arg3 harg3 arg4 harg4 arg5 harg5 arg6 harg6 arg7 harg7 arg8 harg8 arg9 harg9 arg10 harg10 hc0 hc1 x0 x1 x2 x3 x4 = k0_pay1 (k0_pay9 x0 x2 x1 x3 k0_pay4 k0_pay4) (k0_pay12 x0 x2 x1 x3 k0_pay4) x4 k0_pay6 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.canon_cons_unit_zero (S := S1024x1) hz, View.canon_cons_unit_zero (S := S1024x256) hz,
    View.canon_unit_zero (S := S1024x1) hz, View.canon_unit_zero (S := S1024x256) hz,
    View.readCov_unit_zero (S := S1024x1) _ hz, View.readCov_unit_zero (S := S1024x256) _ hz,
    View.readAt_eq_ld, harg2.read_unread, harg3.read_unread, harg4.read_unread, harg5.read_unread, harg6.read_unread,
    harg8.read_unread, harg9.read_unread, harg10.read_unread,
    View.ld_unit_zero (S := S1024x256) hz, View.ld_unit_zero (S := S1024x1) hz, View.ld_unit_zero (S := S1x1024) hz]

/-- At a middle column block the running maximum is updated from what the block before left. -/
theorem max_mid (hc0 : ¬cond0_0 i) (hc1 : ¬cond0_1 i) :
    sout0_B_0 c i arg2 harg2 arg3 harg3 arg4 harg4 arg5 harg5 arg6 harg6 arg7 harg7 arg8 harg8 arg9 harg9 arg10 harg10 hc0 hc1 x0 x1 x2 x3 x4 xs0 xs1 xs2 = k0_pay2 (k0_pay8 x0 x2 x1 x3 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  simp only [View.canon_cons_unit_zero (S := S1024x1) hz, View.canon_cons_unit_zero (S := S1024x256) hz,
    View.canon_unit_zero (S := S1024x1) hz, View.canon_unit_zero (S := S1024x256) hz,
    View.readCov_unit_zero (S := S1024x1) _ hz, View.readCov_unit_zero (S := S1024x256) _ hz,
    View.readAt_eq_ld, harg2.read_unread, harg3.read_unread, harg4.read_unread, harg5.read_unread, harg6.read_unread,
    harg8.read_unread, harg9.read_unread, harg10.read_unread,
    View.ld_unit_zero (S := S1024x256) hz, View.ld_unit_zero (S := S1024x1) hz, View.ld_unit_zero (S := S1x1024) hz]

/-- At a middle column block the normaliser is rescaled and the block's row sums added. -/
theorem norm_mid (hc0 : ¬cond0_0 i) (hc1 : ¬cond0_1 i) :
    sout0_B_1 c i arg2 harg2 arg3 harg3 arg4 harg4 arg5 harg5 arg6 harg6 arg7 harg7 arg8 harg8 arg9 harg9 arg10 harg10 hc0 hc1 x0 x1 x2 x3 x4 xs0 xs1 xs2 = k0_pay11 x0 x2 x1 x3 xs0 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  simp only [View.canon_cons_unit_zero (S := S1024x1) hz, View.canon_cons_unit_zero (S := S1024x256) hz,
    View.canon_unit_zero (S := S1024x1) hz, View.canon_unit_zero (S := S1024x256) hz,
    View.readCov_unit_zero (S := S1024x1) _ hz, View.readCov_unit_zero (S := S1024x256) _ hz,
    View.readAt_eq_ld, harg2.read_unread, harg3.read_unread, harg4.read_unread, harg5.read_unread, harg6.read_unread,
    harg8.read_unread, harg9.read_unread, harg10.read_unread,
    View.ld_unit_zero (S := S1024x256) hz, View.ld_unit_zero (S := S1024x1) hz, View.ld_unit_zero (S := S1x1024) hz]

/-- At a middle column block the weighted sum is rescaled and the block's contribution added. -/
theorem wsum_mid (hc0 : ¬cond0_0 i) (hc1 : ¬cond0_1 i) :
    sout0_B_2 c i arg2 harg2 arg3 harg3 arg4 harg4 arg5 harg5 arg6 harg6 arg7 harg7 arg8 harg8 arg9 harg9 arg10 harg10 hc0 hc1 x0 x1 x2 x3 x4 xs0 xs1 xs2 = k0_pay1 (k0_pay9 x0 x2 x1 x3 xs0 xs0) (k0_pay12 x0 x2 x1 x3 xs0) x4 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  simp only [View.canon_cons_unit_zero (S := S1024x1) hz, View.canon_cons_unit_zero (S := S1024x256) hz,
    View.canon_unit_zero (S := S1024x1) hz, View.canon_unit_zero (S := S1024x256) hz,
    View.readCov_unit_zero (S := S1024x1) _ hz, View.readCov_unit_zero (S := S1024x256) _ hz,
    View.readAt_eq_ld, harg2.read_unread, harg3.read_unread, harg4.read_unread, harg5.read_unread, harg6.read_unread,
    harg8.read_unread, harg9.read_unread, harg10.read_unread,
    View.ld_unit_zero (S := S1024x256) hz, View.ld_unit_zero (S := S1024x1) hz, View.ld_unit_zero (S := S1x1024) hz]

/-- The last column block updates the running maximum as a middle one does. -/
theorem max_last (hc0 : ¬cond0_0 i) (hc1 : cond0_1 i) :
    sout0_C_0 c i arg2 harg2 arg3 harg3 arg4 harg4 arg5 harg5 arg6 harg6 arg7 harg7 arg8 harg8 arg9 harg9 arg10 harg10 hc0 hc1 x0 x1 x2 x3 x4 xs0 xs1 xs2 = k0_pay2 (k0_pay8 x0 x2 x1 x3 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  simp only [View.canon_cons_unit_zero (S := S1024x1) hz, View.canon_cons_unit_zero (S := S1024x256) hz,
    View.canon_unit_zero (S := S1024x1) hz, View.canon_unit_zero (S := S1024x256) hz,
    View.readCov_unit_zero (S := S1024x1) _ hz, View.readCov_unit_zero (S := S1024x256) _ hz,
    View.readAt_eq_ld, harg2.read_unread, harg3.read_unread, harg4.read_unread, harg5.read_unread, harg6.read_unread,
    harg8.read_unread, harg9.read_unread, harg10.read_unread,
    View.ld_unit_zero (S := S1024x256) hz, View.ld_unit_zero (S := S1024x1) hz, View.ld_unit_zero (S := S1x1024) hz]

/-- The last column block updates the normaliser as a middle one does. -/
theorem norm_last (hc0 : ¬cond0_0 i) (hc1 : cond0_1 i) :
    sout0_C_1 c i arg2 harg2 arg3 harg3 arg4 harg4 arg5 harg5 arg6 harg6 arg7 harg7 arg8 harg8 arg9 harg9 arg10 harg10 hc0 hc1 x0 x1 x2 x3 x4 xs0 xs1 xs2 = k0_pay11 x0 x2 x1 x3 xs0 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  simp only [View.canon_cons_unit_zero (S := S1024x1) hz, View.canon_cons_unit_zero (S := S1024x256) hz,
    View.canon_unit_zero (S := S1024x1) hz, View.canon_unit_zero (S := S1024x256) hz,
    View.readCov_unit_zero (S := S1024x1) _ hz, View.readCov_unit_zero (S := S1024x256) _ hz,
    View.readAt_eq_ld, harg2.read_unread, harg3.read_unread, harg4.read_unread, harg5.read_unread, harg6.read_unread,
    harg8.read_unread, harg9.read_unread, harg10.read_unread,
    View.ld_unit_zero (S := S1024x256) hz, View.ld_unit_zero (S := S1024x1) hz, View.ld_unit_zero (S := S1x1024) hz]

/-- The last column block updates the weighted sum as a middle one does. -/
theorem wsum_last (hc0 : ¬cond0_0 i) (hc1 : cond0_1 i) :
    sout0_C_2 c i arg2 harg2 arg3 harg3 arg4 harg4 arg5 harg5 arg6 harg6 arg7 harg7 arg8 harg8 arg9 harg9 arg10 harg10 hc0 hc1 x0 x1 x2 x3 x4 xs0 xs1 xs2 = k0_pay1 (k0_pay9 x0 x2 x1 x3 xs0 xs0) (k0_pay12 x0 x2 x1 x3 xs0) x4 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  simp only [View.canon_cons_unit_zero (S := S1024x1) hz, View.canon_cons_unit_zero (S := S1024x256) hz,
    View.canon_unit_zero (S := S1024x1) hz, View.canon_unit_zero (S := S1024x256) hz,
    View.readCov_unit_zero (S := S1024x1) _ hz, View.readCov_unit_zero (S := S1024x256) _ hz,
    View.readAt_eq_ld, harg2.read_unread, harg3.read_unread, harg4.read_unread, harg5.read_unread, harg6.read_unread,
    harg8.read_unread, harg9.read_unread, harg10.read_unread,
    View.ld_unit_zero (S := S1024x256) hz, View.ld_unit_zero (S := S1024x1) hz, View.ld_unit_zero (S := S1x1024) hz]

/-- At the last column block the output block is the updated weighted sum divided, row by row, by the updated normaliser. -/
theorem out_last (hc0 : ¬cond0_0 i) (hc1 : cond0_1 i) :
    out0_C_5 c i arg2 harg2 arg3 harg3 arg4 harg4 arg5 harg5 arg6 harg6 arg7 harg7 arg8 harg8 arg9 harg9 arg10 harg10 hc0 hc1 x0 x1 x2 x3 x4 xs0 xs1 xs2 = k0_pay3 (k0_pay1 (k0_pay9 x0 x2 x1 x3 xs0 xs0) (k0_pay12 x0 x2 x1 x3 xs0) x4 xs2) (k0_pay11 x0 x2 x1 x3 xs0 xs0 xs1) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  simp only [View.canon_cons_unit_zero (S := S1024x1) hz, View.canon_cons_unit_zero (S := S1024x256) hz,
    View.canon_unit_zero (S := S1024x1) hz, View.canon_unit_zero (S := S1024x256) hz,
    View.readCov_unit_zero (S := S1024x1) _ hz, View.readCov_unit_zero (S := S1024x256) _ hz,
    View.readAt_eq_ld, harg2.read_unread, harg3.read_unread, harg4.read_unread, harg5.read_unread, harg6.read_unread,
    harg8.read_unread, harg9.read_unread, harg10.read_unread,
    View.ld_unit_zero (S := S1024x256) hz, View.ld_unit_zero (S := S1024x1) hz, View.ld_unit_zero (S := S1x1024) hz]

end Cert.KernelIdeal.Pieces

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.BlockAt.lean ====
/-
  The kernel body's arithmetic read entry by entry on the extended reals.

  For one grid point, with its five input blocks Q (pre-scaled queries, 1024 × 256), S (scales, a column), T (targets,
  1024 × 256), N (squared norms, a row), V (sources, 1024 × 256) and the running column vectors m, l and matrix a:

    logit r k   = Σ_d Q r d · T k d − S r · N k
    m' r        = max (m r) (fold of max from −∞ over k of logit r k)
    α r         = exp (m r − m' r)
    p r k       = exp (logit r k − m' r)
    l' r        = α r · l r + Σ_k p r k
    a' r e      = α r · a r e + Σ_k p r k · V k e
    out r e     = a' r e / l' r

  A change of float format is the identity here, so the weights enter the second product as they are.
-/
import proofs.«103823_j66314295050701_2_alg».proof.Proof.Gen.KernelIdeal.Skeleton
import proofs.«103823_j66314295050701_2_alg».proof.Proof.LibColumn
import proofs.«103823_j66314295050701_2_alg».proof.Proof.LibPlainDot
import proofs.«103823_j66314295050701_2_alg».proof.Proof.LibLaneSum
import proofs.«103823_j66314295050701_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockAt

open Cert.KernelIdeal Cert.KernelIdeal.Gen Cert.KernelMean
open Idealize.ShloMosaic Idealize.ShloMosaic.ValueIdx
open scoped BigOperators

variable (x0 x2 : Vec Ideal S1024x256 .f32) (x1 : Vec Ideal S1024x1 .f32) (x3 : Vec Ideal S1x1024 .f32)
  (x4 : Vec Ideal S1024x256 .bf16) (mo lo : Vec Ideal S1024x1 .f32) (ao : Vec Ideal S1024x256 .f32)

/-- The logit of row `r` against column `k` of the block. -/
theorem logit_at (r k : Fin 1024) :
    k0_pay7 (F := Ideal) x0 x2 x1 x3 (ix2 r k)
      = (∑ d : Fin 256, x0 (ix2 r d) * x2 (ix2 k d)) - x1 (ix2 r (0 : Fin 1)) * x3 (ix2 (0 : Fin 1) k) := by
  unfold k0_pay7
  simp only [shapeCast_self]
  rw [subf_apply, mulf_apply, Cert.GraphConv.Column.broadcastTo_a1_ab_apply, broadcastTo_1b_ab_apply]
  refine congrArg (fun z => z - x1 (ix2 r (0 : Fin 1)) * x3 (ix2 (0 : Fin 1) k)) ?_
  refine (Cert.PlainDot.matmul_zero_apply (M := 1024) (K := 256) (N := 1024)
    dot_S1024x256_S256x1024_S1024x1024_1_0_0_1_n_n rfl (some .fp32) x0
    (transpose S256x1024 [1, 0] x2 transposes_S1024x256_p1_0_S256x1024) r k).trans ?_
  refine Finset.sum_congr rfl fun d _ => ?_
  exact congrArg (fun z => x0 (ix2 r d) * z) (transpose_ix2_apply (a := 1024) (b := 256) x2 transposes_S1024x256_p1_0_S256x1024 d k)

/-- A row's maximum over the block's columns, folded from `−∞`. -/
theorem lanemax_at (src : FVec Ideal S1024x1024 .f32) (h : S1024x1024.Reduces [1] S1024) (hφ : FKind.Formats .f32)
    (hacc : (0xFF800000#32 : BitVec 32) = FKind.maximumf.neutral .f32 hφ) (r : Fin 1024) :
    multiReduction .maximumf [1] S1024 src 0xFF800000#32 h hφ hacc (ix1 r)
      = (Finset.univ : Finset (Fin 1024)).fold max negInf (fun k => src (ix2 r k)) := by
  refine (Ideal.multiReduction_maximumf_single src 0xFF800000#32 h hφ hacc (ix1 r)).trans ?_
  refine congrArg (fun f => (Finset.univ : Finset (Fin 1024)).fold max negInf f) (funext fun k => ?_)
  exact congrArg src (funext fun ax => Fin.ext (by match ax with | ⟨0, _⟩ => rfl | ⟨1, _⟩ => rfl))

/-- The updated running maximum of row `r`. -/
theorem max_at (r : Fin 1024) :
    k0_pay8 (F := Ideal) x0 x2 x1 x3 mo (ix2 r (0 : Fin 1))
      = max (mo (ix2 r (0 : Fin 1)))
          ((Finset.univ : Finset (Fin 1024)).fold max negInf (fun k => k0_pay7 (F := Ideal) x0 x2 x1 x3 (ix2 r k))) := by
  unfold k0_pay8
  rw [maximumf_apply, Cert.GraphConv.Column.shapeCast_a_a1_apply]
  exact congrArg (fun z => max (mo (ix2 r (0 : Fin 1))) z) (lanemax_at _ _ _ _ r)

/-- The rescale factor of row `r`. -/
theorem alpha_at (r : Fin 1024) :
    k0_pay9 (F := Ideal) x0 x2 x1 x3 mo mo (ix2 r (0 : Fin 1))
      = Ideal.exp (mo (ix2 r (0 : Fin 1)) - k0_pay8 (F := Ideal) x0 x2 x1 x3 mo (ix2 r (0 : Fin 1))) := rfl

/-- The weight of column `k` in row `r`. -/
theorem weight_at (r k : Fin 1024) :
    k0_pay10 (F := Ideal) x0 x2 x1 x3 mo (ix2 r k)
      = Ideal.exp (k0_pay7 (F := Ideal) x0 x2 x1 x3 (ix2 r k) - k0_pay8 (F := Ideal) x0 x2 x1 x3 mo (ix2 r (0 : Fin 1))) := by
  unfold k0_pay10
  show Ideal.exp (k0_pay7 (F := Ideal) x0 x2 x1 x3 (ix2 r k) - broadcastTo S1024x1024 (k0_pay8 (F := Ideal) x0 x2 x1 x3 mo) broadcasts_S1024x1_S1024x1024 (ix2 r k)) = _
  rw [Cert.GraphConv.Column.broadcastTo_a1_ab_apply]

/-- The weights pass into the second product unchanged. -/
theorem weight_trunc : k0_pay12 (F := Ideal) x0 x2 x1 x3 mo = k0_pay10 (F := Ideal) x0 x2 x1 x3 mo := rfl

/-- The updated normaliser of row `r`. -/
theorem norm_at (r : Fin 1024) :
    k0_pay11 (F := Ideal) x0 x2 x1 x3 mo mo lo (ix2 r (0 : Fin 1))
      = k0_pay9 (F := Ideal) x0 x2 x1 x3 mo mo (ix2 r (0 : Fin 1)) * lo (ix2 r (0 : Fin 1))
          + ∑ k : Fin 1024, k0_pay10 (F := Ideal) x0 x2 x1 x3 mo (ix2 r k) := by
  unfold k0_pay11
  simp only [shapeCast_self]
  rw [addf_apply, mulf_apply, Cert.GraphConv.Column.shapeCast_a_a1_apply]
  exact congrArg (fun z => k0_pay9 (F := Ideal) x0 x2 x1 x3 mo mo (ix2 r (0 : Fin 1)) * lo (ix2 r (0 : Fin 1)) + z)
    (Cert.LaneSum.sum_last2 (a := 1024) (b := 1024) _ _ _ _ _ r)

/-- The updated weighted sum at `(r, e)`, from a rescale column `al` and weights `p`. -/
theorem wsum_at (al : FVec Ideal S1024x1 .f32) (p : FVec Ideal S1024x1024 .bf16) (r : Fin 1024) (e : Fin 256) :
    k0_pay1 (F := Ideal) al p x4 ao (ix2 r e)
      = al (ix2 r (0 : Fin 1)) * ao (ix2 r e) + ∑ k : Fin 1024, p (ix2 r k) * x4 (ix2 k e) := by
  unfold k0_pay1
  simp only [shapeCast_self]
  rw [addf_apply, mulf_apply, Cert.GraphConv.Column.broadcastTo_a1_ab_apply]
  exact congrArg (fun z => al (ix2 r (0 : Fin 1)) * ao (ix2 r e) + z)
    (Cert.PlainDot.matmul_zero_apply (M := 1024) (K := 1024) (N := 256)
      dot_S1024x1024_S1024x256_S1024x256_1_0_0_1_n_n rfl none p x4 r e)

/-- The stored maximum is the updated one. -/
theorem keep_at (v : FVec Ideal S1024x1 .f32) : k0_pay2 (F := Ideal) v = v := by
  unfold k0_pay2; exact shapeCast_self _ _

/-- The quotient at `(r, e)`. -/
theorem quot_at (a : Vec Ideal S1024x256 .f32) (l : Vec Ideal S1024x1 .f32) (r : Fin 1024) (e : Fin 256) :
    k0_pay3 (F := Ideal) a l (ix2 r e) = Ideal.div (a (ix2 r e)) (l (ix2 r (0 : Fin 1))) := by
  unfold k0_pay3
  rw [divf_apply, Cert.GraphConv.Column.broadcastTo_a1_ab_apply]

/-- The reset values. -/
theorem reset_max (i : S1024x1.Idx) : k0_pay4 (F := Ideal) i = floor0 := by
  unfold k0_pay4; simp only [shapeCast_self]; rfl
theorem reset_norm (i : S1024x1.Idx) : k0_pay5 (F := Ideal) i = zero := by
  unfold k0_pay5; simp only [shapeCast_self]; rfl
theorem reset_wsum (i : S1024x256.Idx) : k0_pay6 (F := Ideal) i = zero := by
  unfold k0_pay6; simp only [shapeCast_self]; rfl

end Cert.KernelIdeal.BlockAt

end
-- ==== Proof.BlockStep.lean ====
/-
  One grid point's update is one `step` of the row recurrence.

  If the five input blocks of a grid point hold, entry by entry, the pre-scaled queries, scales, targets, squared norms
  and sources of rows `row r` and of column block `j`, and the running vectors hold a state `s r` for each row of the
  block, then the three updated vectors hold `step (row r) j (s r)`, and the quotient block the updated weighted sum
  over the updated normaliser.
-/
import proofs.«103823_j66314295050701_2_alg».proof.Proof.BlockAt

noncomputable section

namespace Cert.KernelIdeal.BlockStep

open Cert.KernelIdeal Cert.KernelIdeal.Gen Cert.KernelMean Cert.KernelIdeal.BlockAt
open Idealize.ShloMosaic Idealize.ShloMosaic.ValueIdx
open scoped BigOperators

variable (q : Fin 4096 → Fin 256 → EReal) (sd : Fin 4096 → EReal) (src tgt : Fin 16384 → Fin 256 → EReal)
  (row : Fin 1024 → Fin 4096) (j : Fin 16) (s : Fin 1024 → St)
  (x0 x2 : Vec Ideal S1024x256 .f32) (x1 : Vec Ideal S1024x1 .f32) (x3 : Vec Ideal S1x1024 .f32)
  (x4 : Vec Ideal S1024x256 .bf16) (mo lo : Vec Ideal S1024x1 .f32) (ao : Vec Ideal S1024x256 .f32)
  (hx0 : ∀ r d, x0 (ix2 r d) = qs q sd (row r) d)
  (hx1 : ∀ r, x1 (ix2 r (0 : Fin 1)) = scale sd (row r))
  (hx2 : ∀ k d, x2 (ix2 k d) = tgt (col j k) d)
  (hx3 : ∀ k, x3 (ix2 (0 : Fin 1) k) = tsq tgt (col j k))
  (hx4 : ∀ k e, x4 (ix2 k e) = src (col j k) e)
  (hm : ∀ r, mo (ix2 r (0 : Fin 1)) = (s r).m)
  (hl : ∀ r, lo (ix2 r (0 : Fin 1)) = (s r).l)
  (ha : ∀ r e, ao (ix2 r e) = (s r).a e)

include hx0 hx1 hx2 hx3 in
/-- The block's logits are the rows' logits against the block's columns. -/
theorem logit_eq (r k : Fin 1024) :
    k0_pay7 (F := Ideal) x0 x2 x1 x3 (ix2 r k) = logit q sd tgt (row r) (col j k) := by
  rw [logit_at, hx1, hx3]
  simp only [hx0, hx2]
  rfl

include hx0 hx1 hx2 hx3 hm in
/-- The updated maximum. -/
theorem max_eq (r : Fin 1024) :
    k0_pay8 (F := Ideal) x0 x2 x1 x3 mo (ix2 r (0 : Fin 1)) = (step q sd src tgt (row r) j (s r)).m := by
  rw [max_at, hm]
  simp only [logit_eq q sd tgt row j x0 x2 x1 x3 hx0 hx1 hx2 hx3]
  rfl

include hx0 hx1 hx2 hx3 hm hl in
/-- The updated normaliser. -/
theorem norm_eq (r : Fin 1024) :
    k0_pay11 (F := Ideal) x0 x2 x1 x3 mo mo lo (ix2 r (0 : Fin 1)) = (step q sd src tgt (row r) j (s r)).l := by
  rw [norm_at, alpha_at, hl]
  simp only [weight_at, max_eq q sd src tgt row j s x0 x2 x1 x3 mo hx0 hx1 hx2 hx3 hm,
    logit_eq q sd tgt row j x0 x2 x1 x3 hx0 hx1 hx2 hx3, hm]
  rfl

include hx0 hx1 hx2 hx3 hx4 hm ha in
/-- The updated weighted sum. -/
theorem wsum_eq (r : Fin 1024) (e : Fin 256) :
    k0_pay1 (F := Ideal) (k0_pay9 (F := Ideal) x0 x2 x1 x3 mo mo) (k0_pay12 (F := Ideal) x0 x2 x1 x3 mo) x4 ao (ix2 r e)
      = (step q sd src tgt (row r) j (s r)).a e := by
  rw [wsum_at, weight_trunc, alpha_at, ha]
  simp only [weight_at, max_eq q sd src tgt row j s x0 x2 x1 x3 mo hx0 hx1 hx2 hx3 hm,
    logit_eq q sd tgt row j x0 x2 x1 x3 hx0 hx1 hx2 hx3, hm, hx4]
  rfl

end Cert.KernelIdeal.BlockStep

end
-- ==== Proof.PointStep.lean ====
/-
  One grid point, start to end: what it leaves in the three running buffers (and, at a last column block, in the output
  block) is the row recurrence's `step` of what it found — the found pieces read back, their arithmetic read entry by
  entry, and the entries identified with the recurrence's, composed over plain variables for the buffers and blocks.
-/
import proofs.«103823_j66314295050701_2_alg».proof.Proof.Pieces
import proofs.«103823_j66314295050701_2_alg».proof.Proof.BlockStep

set_option maxRecDepth 16384

noncomputable section

namespace Cert.KernelIdeal.PointStep

open Cert.KernelIdeal Cert.KernelIdeal.Gen Cert.KernelMean
open Idealize.ShloMosaic Idealize.ShloMosaic.TcCoe Idealize.ShloMosaic.ValueIdx Idealize.SL.Sem
open scoped BigOperators

variable (c : Dev nD) (i : grid0.Coords) (arg2 : Memref sig .tc .vmem S1024x256 .f32) (harg2 : arg2.IsWhole) (arg3 : Memref sig .tc .vmem S1024x1 .f32) (harg3 : arg3.IsWhole) (arg4 : Memref sig .tc .vmem S1024x256 .f32) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole)
  (q : Fin 4096 → Fin 256 → EReal) (sd : Fin 4096 → EReal) (src tgt : Fin 16384 → Fin 256 → EReal)
  (row : Fin 1024 → Fin 4096) (j : Fin 16) (s : Fin 1024 → St)
  (x0 : Vec Ideal S1024x256 .f32) (x1 : Vec Ideal S1024x1 .f32) (x2 : Vec Ideal S1024x256 .f32) (x3 : Vec Ideal S1x1024 .f32)
  (x4 : Vec Ideal S1024x256 .bf16) (xs0 xs1 : Vec Ideal S1024x1 .f32) (xs2 : Vec Ideal S1024x256 .f32)
  (hx0 : ∀ r d, x0 (ix2 r d) = qs q sd (row r) d)
  (hx1 : ∀ r, x1 (ix2 r (0 : Fin 1)) = scale sd (row r))
  (hx2 : ∀ k d, x2 (ix2 k d) = tgt (col j k) d)
  (hx3 : ∀ k, x3 (ix2 (0 : Fin 1) k) = tsq tgt (col j k))
  (hx4 : ∀ k e, x4 (ix2 k e) = src (col j k) e)
  (hm : ∀ r, xs0 (ix2 r (0 : Fin 1)) = (s r).m)
  (hl : ∀ r, xs1 (ix2 r (0 : Fin 1)) = (s r).l)
  (ha : ∀ r e, xs2 (ix2 r e) = (s r).a e)

include hx0 hx1 hx2 hx3 hx4 in
/-- A first column block resets the running quantities and folds its block in. -/
theorem first_point (hc0 : cond0_0 i) (hc1 : ¬cond0_1 i) :
    (∀ r : Fin 1024, sout0_A_0 (F := Ideal) c i arg2 harg2 arg3 harg3 arg4 harg4 arg5 harg5 arg6 harg6 arg7 harg7 arg8 harg8 arg9 harg9 arg10 harg10 hc0 hc1 x0 x1 x2 x3 x4 (ix2 r (0 : Fin 1)) = (step q sd src tgt (row r) j init).m)
    ∧ (∀ r : Fin 1024, sout0_A_1 (F := Ideal) c i arg2 harg2 arg3 harg3 arg4 harg4 arg5 harg5 arg6 harg6 arg7 harg7 arg8 harg8 arg9 harg9 arg10 harg10 hc0 hc1 x0 x1 x2 x3 x4 (ix2 r (0 : Fin 1)) = (step q sd src tgt (row r) j init).l)
    ∧ (∀ (r : Fin 1024) (e : Fin 256), sout0_A_2 (F := Ideal) c i arg2 harg2 arg3 harg3 arg4 harg4 arg5 harg5 arg6 harg6 arg7 harg7 arg8 harg8 arg9 harg9 arg10 harg10 hc0 hc1 x0 x1 x2 x3 x4 (ix2 r e) = (step q sd src tgt (row r) j init).a e) := by
  rw [Pieces.max_first, Pieces.norm_first, Pieces.wsum_first, BlockAt.keep_at]
  exact ⟨fun r => BlockStep.max_eq q sd src tgt row j (fun _ => init) x0 x2 x1 x3 (k0_pay4 (F := Ideal)) hx0 hx1 hx2 hx3 (fun r => BlockAt.reset_max _) r,
    fun r => BlockStep.norm_eq q sd src tgt row j (fun _ => init) x0 x2 x1 x3 (k0_pay4 (F := Ideal)) (k0_pay5 (F := Ideal)) hx0 hx1 hx2 hx3 (fun r => BlockAt.reset_max _) (fun r => BlockAt.reset_norm _) r,
    fun r e => BlockStep.wsum_eq q sd src tgt row j (fun _ => init) x0 x2 x1 x3 x4 (k0_pay4 (F := Ideal)) (k0_pay6 (F := Ideal)) hx0 hx1 hx2 hx3 hx4 (fun r => BlockAt.reset_max _) (fun r e => BlockAt.reset_wsum _) r e⟩

include hx0 hx1 hx2 hx3 hx4 hm hl ha in
/-- A middle column block folds its block into what it found. -/
theorem mid_point (hc0 : ¬cond0_0 i) (hc1 : ¬cond0_1 i) :
    (∀ r : Fin 1024, sout0_B_0 (F := Ideal) c i arg2 harg2 arg3 harg3 arg4 harg4 arg5 harg5 arg6 harg6 arg7 harg7 arg8 harg8 arg9 harg9 arg10 harg10 hc0 hc1 x0 x1 x2 x3 x4 xs0 xs1 xs2 (ix2 r (0 : Fin 1)) = (step q sd src tgt (row r) j (s r)).m)
    ∧ (∀ r : Fin 1024, sout0_B_1 (F := Ideal) c i arg2 harg2 arg3 harg3 arg4 harg4 arg5 harg5 arg6 harg6 arg7 harg7 arg8 harg8 arg9 harg9 arg10 harg10 hc0 hc1 x0 x1 x2 x3 x4 xs0 xs1 xs2 (ix2 r (0 : Fin 1)) = (step q sd src tgt (row r) j (s r)).l)
    ∧ (∀ (r : Fin 1024) (e : Fin 256), sout0_B_2 (F := Ideal) c i arg2 harg2 arg3 harg3 arg4 harg4 arg5 harg5 arg6 harg6 arg7 harg7 arg8 harg8 arg9 harg9 arg10 harg10 hc0 hc1 x0 x1 x2 x3 x4 xs0 xs1 xs2 (ix2 r e) = (step q sd src tgt (row r) j (s r)).a e) := by
  rw [Pieces.max_mid, Pieces.norm_mid, Pieces.wsum_mid, BlockAt.keep_at]
  exact ⟨fun r => BlockStep.max_eq q sd src tgt row j s x0 x2 x1 x3 xs0 hx0 hx1 hx2 hx3 hm r,
    fun r => BlockStep.norm_eq q sd src tgt row j s x0 x2 x1 x3 xs0 xs1 hx0 hx1 hx2 hx3 hm hl r,
    fun r e => BlockStep.wsum_eq q sd src tgt row j s x0 x2 x1 x3 x4 xs0 xs2 hx0 hx1 hx2 hx3 hx4 hm ha r e⟩

include hx0 hx1 hx2 hx3 hx4 hm hl ha in
/-- A last column block does the same, and leaves the quotient in the output block. -/
theorem last_point (hc0 : ¬cond0_0 i) (hc1 : cond0_1 i) :
    (∀ r : Fin 1024, sout0_C_0 (F := Ideal) c i arg2 harg2 arg3 harg3 arg4 harg4 arg5 harg5 arg6 harg6 arg7 harg7 arg8 harg8 arg9 harg9 arg10 harg10 hc0 hc1 x0 x1 x2 x3 x4 xs0 xs1 xs2 (ix2 r (0 : Fin 1)) = (step q sd src tgt (row r) j (s r)).m)
    ∧ (∀ r : Fin 1024, sout0_C_1 (F := Ideal) c i arg2 harg2 arg3 harg3 arg4 harg4 arg5 harg5 arg6 harg6 arg7 harg7 arg8 harg8 arg9 harg9 arg10 harg10 hc0 hc1 x0 x1 x2 x3 x4 xs0 xs1 xs2 (ix2 r (0 : Fin 1)) = (step q sd src tgt (row r) j (s r)).l)
    ∧ (∀ (r : Fin 1024) (e : Fin 256), sout0_C_2 (F := Ideal) c i arg2 harg2 arg3 harg3 arg4 harg4 arg5 harg5 arg6 harg6 arg7 harg7 arg8 harg8 arg9 harg9 arg10 harg10 hc0 hc1 x0 x1 x2 x3 x4 xs0 xs1 xs2 (ix2 r e) = (step q sd src tgt (row r) j (s r)).a e)
    ∧ (∀ (r : Fin 1024) (e : Fin 256), out0_C_5 (F := Ideal) c i arg2 harg2 arg3 harg3 arg4 harg4 arg5 harg5 arg6 harg6 arg7 harg7 arg8 harg8 arg9 harg9 arg10 harg10 hc0 hc1 x0 x1 x2 x3 x4 xs0 xs1 xs2 (ix2 r e)
        = Ideal.div ((step q sd src tgt (row r) j (s r)).a e) ((step q sd src tgt (row r) j (s r)).l)) := by
  rw [Pieces.max_last, Pieces.norm_last, Pieces.wsum_last, Pieces.out_last, BlockAt.keep_at]
  refine ⟨fun r => BlockStep.max_eq q sd src tgt row j s x0 x2 x1 x3 xs0 hx0 hx1 hx2 hx3 hm r,
    fun r => BlockStep.norm_eq q sd src tgt row j s x0 x2 x1 x3 xs0 xs1 hx0 hx1 hx2 hx3 hm hl r,
    fun r e => BlockStep.wsum_eq q sd src tgt row j s x0 x2 x1 x3 x4 xs0 xs2 hx0 hx1 hx2 hx3 hx4 hm ha r e, fun r e => ?_⟩
  rw [BlockAt.quot_at, BlockStep.wsum_eq q sd src tgt row j s x0 x2 x1 x3 x4 xs0 xs2 hx0 hx1 hx2 hx3 hx4 hm ha r e,
    BlockStep.norm_eq q sd src tgt row j s x0 x2 x1 x3 xs0 xs1 hx0 hx1 hx2 hx3 hm hl r]

end Cert.KernelIdeal.PointStep

end
-- ==== Proof.InvCore.lean ====
/-
  The running quantities after every grid point.

  By induction along the grid (row-major: the 16 column blocks of a row block are consecutive points), after point
  `t` the three running vectors hold, for each row `r` of the point's row block, the state `run (row) (t % 16)` of
  the row recurrence: at a first column block the point resets them and folds block 0 in; at any other it folds its
  block into what the point before left, which belongs to the same row block. At a last column block the output block
  is the quotient of that state's weighted sum by its normaliser, the tiled spelling of the result.

  The facts about what the input blocks hold are hypotheses here (`H0 … H4`).
-/
import proofs.«103823_j66314295050701_2_alg».proof.Proof.Gen.KernelIdeal.Frame
import proofs.«103823_j66314295050701_2_alg».proof.Proof.PointStep
import proofs.«103823_j66314295050701_2_alg».proof.Proof.Args

set_option maxRecDepth 16384

noncomputable section

namespace Cert.KernelIdeal.InvCore

open Cert.KernelIdeal Cert.KernelIdeal.Gen Cert.KernelMean
open Idealize.ShloMosaic Idealize.ShloMosaic.TcCoe Idealize.ShloMosaic.ValueIdx Idealize.SL.Sem

variable (m : (ℓ : Loc nD τ sig) → Buf (Elt Ideal) ℓ) (c : Dev nD)
  (H0 : ∀ (t : Fin cfg0.N) (r : Fin 1024) (d : Fin 256),
    (iblk m c 0 t : Vec Ideal S1024x256 .f32) (ix2 r d) = qs (Args.argQ m c) (Args.argSd m c) (Args.rowOf t r) d)
  (H1 : ∀ (t : Fin cfg0.N) (r : Fin 1024),
    (iblk m c 1 t : Vec Ideal S1024x1 .f32) (ix2 r (0 : Fin 1)) = scale (Args.argSd m c) (Args.rowOf t r))
  (H2 : ∀ (t : Fin cfg0.N) (k : Fin 1024) (d : Fin 256),
    (iblk m c 2 t : Vec Ideal S1024x256 .f32) (ix2 k d) = Args.argTgt m c (col (blk t.val) k) d)
  (H3 : ∀ (t : Fin cfg0.N) (k : Fin 1024),
    (iblk m c 3 t : Vec Ideal S1x1024 .f32) (ix2 (0 : Fin 1) k) = tsq (Args.argTgt m c) (col (blk t.val) k))
  (H4 : ∀ (t : Fin cfg0.N) (k : Fin 1024) (e : Fin 256),
    (iblk m c 4 t : Vec Ideal S1024x256 .bf16) (ix2 k e) = Args.argSrc m c (col (blk t.val) k) e)

/-- The three running vectors after position `n` hold the rows' states after column block `n % 16`. -/
def Holds (n : ℕ) (hn : n < cfg0.N) : Prop :=
  (∀ r : Fin 1024, ((outsAt0 m c n hn).2.1 : Vec Ideal S1024x1 .f32) (ix2 r (0 : Fin 1))
      = (run (Args.argQ m c) (Args.argSd m c) (Args.argSrc m c) (Args.argTgt m c) (Args.rowOf ⟨n, hn⟩ r) (n % 16)).m)
  ∧ (∀ r : Fin 1024, ((outsAt0 m c n hn).2.2.1 : Vec Ideal S1024x1 .f32) (ix2 r (0 : Fin 1))
      = (run (Args.argQ m c) (Args.argSd m c) (Args.argSrc m c) (Args.argTgt m c) (Args.rowOf ⟨n, hn⟩ r) (n % 16)).l)
  ∧ (∀ (r : Fin 1024) (e : Fin 256), ((outsAt0 m c n hn).2.2.2 : Vec Ideal S1024x256 .f32) (ix2 r e)
      = (run (Args.argQ m c) (Args.argSd m c) (Args.argSrc m c) (Args.argTgt m c) (Args.rowOf ⟨n, hn⟩ r) (n % 16)).a e)

include H0 H1 H2 H3 H4 in
/-- A first column block: reset, then block 0. -/
theorem holds_first (t : Fin cfg0.N) (h0 : t.val % 16 = 0) : Holds m c t.val t.isLt := by
  have h1 : ¬t.val % 16 = 15 := by omega
  have hb : blk t.val = blk 0 := Fin.ext (by show t.val % 16 = 0 % 16; omega)
  have hrun : ∀ r, run (Args.argQ m c) (Args.argSd m c) (Args.argSrc m c) (Args.argTgt m c) (Args.rowOf t r) (t.val % 16)
      = step (Args.argQ m c) (Args.argSd m c) (Args.argSrc m c) (Args.argTgt m c) (Args.rowOf t r) (blk t.val) init := fun r => by rw [h0, hb]; rfl
  have key := PointStep.first_point c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (Args.argQ m c) (Args.argSd m c) (Args.argSrc m c) (Args.argTgt m c) (Args.rowOf t) (blk t.val)
    (iblk m c 0 t) (iblk m c 1 t) (iblk m c 2 t) (iblk m c 3 t) (iblk m c 4 t) (H0 t) (H1 t) (H2 t) (H3 t) (H4 t) ((hcond0_0 t).mpr h0) (fun h => h1 ((hcond0_1 t).mp h))
  unfold Holds
  rw [outsAt0_A m c t h0 h1]
  dsimp only [Fin.eta]
  refine ⟨fun r => ?_, fun r => ?_, fun r e => ?_⟩
  · exact (key.1 r).trans (congrArg St.m (hrun r).symm)
  · exact (key.2.1 r).trans (congrArg St.l (hrun r).symm)
  · exact (key.2.2 r e).trans (congrFun (congrArg St.a (hrun r).symm) e)

/-- The point before a non-first column block is in the same row block, one column block earlier. -/
theorem prev_row (t : Fin cfg0.N) (h0 : ¬t.val % 16 = 0) (r : Fin 1024) :
    Args.rowOf ⟨t.val - 1, Nat.lt_of_le_of_lt (Nat.sub_le _ _) t.isLt⟩ r = Args.rowOf t r :=
  Fin.ext (by rw [Args.rowOf_val, Args.rowOf_val]; show (t.val - 1) / 16 * 1024 + r.val = t.val / 16 * 1024 + r.val; omega)

/-- The row recurrence at a non-first column block: one `step` from the state one block earlier. -/
theorem run_next (t : Fin cfg0.N) (h0 : ¬t.val % 16 = 0) (n : Fin 4096) :
    run (Args.argQ m c) (Args.argSd m c) (Args.argSrc m c) (Args.argTgt m c) n (t.val % 16)
      = step (Args.argQ m c) (Args.argSd m c) (Args.argSrc m c) (Args.argTgt m c) n (blk t.val) (run (Args.argQ m c) (Args.argSd m c) (Args.argSrc m c) (Args.argTgt m c) n ((t.val - 1) % 16)) := by
  have hmod : t.val % 16 = (t.val - 1) % 16 + 1 := by omega
  have hb : blk ((t.val - 1) % 16 + 1) = blk t.val := Fin.ext (by show ((t.val - 1) % 16 + 1) % 16 = t.val % 16; omega)
  rw [hmod, ← hb]
  rfl

include H0 H1 H2 H3 H4 in
/-- A later column block: one step from what the point before left. -/
theorem holds_next (t : Fin cfg0.N) (h0 : ¬t.val % 16 = 0)
    (prev : Holds m c (t.val - 1) (Nat.lt_of_le_of_lt (Nat.sub_le _ _) t.isLt)) : Holds m c t.val t.isLt := by
  have hm : ∀ r : Fin 1024, ((outsAt0 m c (t.val - 1) (Nat.lt_of_le_of_lt (Nat.sub_le _ _) t.isLt)).2.1 : Vec Ideal S1024x1 .f32) (ix2 r (0 : Fin 1))
      = (run (Args.argQ m c) (Args.argSd m c) (Args.argSrc m c) (Args.argTgt m c) (Args.rowOf t r) ((t.val - 1) % 16)).m := fun r => by
    rw [← prev_row t h0 r]; exact prev.1 r
  have hl : ∀ r : Fin 1024, ((outsAt0 m c (t.val - 1) (Nat.lt_of_le_of_lt (Nat.sub_le _ _) t.isLt)).2.2.1 : Vec Ideal S1024x1 .f32) (ix2 r (0 : Fin 1))
      = (run (Args.argQ m c) (Args.argSd m c) (Args.argSrc m c) (Args.argTgt m c) (Args.rowOf t r) ((t.val - 1) % 16)).l := fun r => by
    rw [← prev_row t h0 r]; exact prev.2.1 r
  have ha : ∀ (r : Fin 1024) (e : Fin 256), ((outsAt0 m c (t.val - 1) (Nat.lt_of_le_of_lt (Nat.sub_le _ _) t.isLt)).2.2.2 : Vec Ideal S1024x256 .f32) (ix2 r e)
      = (run (Args.argQ m c) (Args.argSd m c) (Args.argSrc m c) (Args.argTgt m c) (Args.rowOf t r) ((t.val - 1) % 16)).a e := fun r e => by
    rw [← prev_row t h0 r]; exact prev.2.2 r e
  unfold Holds
  by_cases h1 : t.val % 16 = 15
  · have key := PointStep.last_point c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (Args.argQ m c) (Args.argSd m c) (Args.argSrc m c) (Args.argTgt m c) (Args.rowOf t) (blk t.val)
      (fun r => run (Args.argQ m c) (Args.argSd m c) (Args.argSrc m c) (Args.argTgt m c) (Args.rowOf t r) ((t.val - 1) % 16))
      (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (H0 t) (H1 t) (H2 t) (H3 t) (H4 t) hm hl ha (fun h => h0 ((hcond0_0 t).mp h)) ((hcond0_1 t).mpr h1)
    rw [outsAt0_C m c t h0 h1]
    dsimp only [Fin.eta]
    refine ⟨fun r => ?_, fun r => ?_, fun r e => ?_⟩
    · exact (key.1 r).trans (congrArg St.m (run_next m c t h0 (Args.rowOf t r)).symm)
    · exact (key.2.1 r).trans (congrArg St.l (run_next m c t h0 (Args.rowOf t r)).symm)
    · exact (key.2.2.1 r e).trans (congrFun (congrArg St.a (run_next m c t h0 (Args.rowOf t r)).symm) e)
  · have key := PointStep.mid_point c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (Args.argQ m c) (Args.argSd m c) (Args.argSrc m c) (Args.argTgt m c) (Args.rowOf t) (blk t.val)
      (fun r => run (Args.argQ m c) (Args.argSd m c) (Args.argSrc m c) (Args.argTgt m c) (Args.rowOf t r) ((t.val - 1) % 16))
      (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (H0 t) (H1 t) (H2 t) (H3 t) (H4 t) hm hl ha (fun h => h0 ((hcond0_0 t).mp h)) (fun h => h1 ((hcond0_1 t).mp h))
    rw [outsAt0_B m c t h0 h1]
    dsimp only [Fin.eta]
    refine ⟨fun r => ?_, fun r => ?_, fun r e => ?_⟩
    · exact (key.1 r).trans (congrArg St.m (run_next m c t h0 (Args.rowOf t r)).symm)
    · exact (key.2.1 r).trans (congrArg St.l (run_next m c t h0 (Args.rowOf t r)).symm)
    · exact (key.2.2 r e).trans (congrFun (congrArg St.a (run_next m c t h0 (Args.rowOf t r)).symm) e)

include H0 H1 H2 H3 H4 in
/-- After every grid point. -/
theorem holds : ∀ (n : ℕ) (hn : n < cfg0.N), Holds m c n hn := by
  intro n
  induction n with
  | zero => intro hn; exact holds_first m c H0 H1 H2 H3 H4 ⟨0, hn⟩ rfl
  | succ k ih =>
    intro hn
    by_cases h0 : (k + 1) % 16 = 0
    · exact holds_first m c H0 H1 H2 H3 H4 ⟨k + 1, hn⟩ h0
    · exact holds_next m c H0 H1 H2 H3 H4 ⟨k + 1, hn⟩ h0 (ih (Nat.lt_of_succ_lt hn))

include H0 H1 H2 H3 H4 in
/-- At a last column block the output block holds the tiled spelling of the result. -/
theorem out_last (t : Fin cfg0.N) (h1 : t.val % 16 = 15) (r : Fin 1024) (e : Fin 256) :
    ((outsAt0 m c t.val t.isLt).1 : Vec Ideal S1024x256 .f32) (ix2 r e)
      = kerOut (Args.argQ m c) (Args.argSd m c) (Args.argSrc m c) (Args.argTgt m c) (Args.rowOf t r) e := by
  have h0 : ¬t.val % 16 = 0 := by omega
  have prev := holds m c H0 H1 H2 H3 H4 (t.val - 1) (Nat.lt_of_le_of_lt (Nat.sub_le _ _) t.isLt)
  have hm : ∀ r : Fin 1024, ((outsAt0 m c (t.val - 1) (Nat.lt_of_le_of_lt (Nat.sub_le _ _) t.isLt)).2.1 : Vec Ideal S1024x1 .f32) (ix2 r (0 : Fin 1))
      = (run (Args.argQ m c) (Args.argSd m c) (Args.argSrc m c) (Args.argTgt m c) (Args.rowOf t r) ((t.val - 1) % 16)).m := fun r => by
    rw [← prev_row t h0 r]; exact prev.1 r
  have hl : ∀ r : Fin 1024, ((outsAt0 m c (t.val - 1) (Nat.lt_of_le_of_lt (Nat.sub_le _ _) t.isLt)).2.2.1 : Vec Ideal S1024x1 .f32) (ix2 r (0 : Fin 1))
      = (run (Args.argQ m c) (Args.argSd m c) (Args.argSrc m c) (Args.argTgt m c) (Args.rowOf t r) ((t.val - 1) % 16)).l := fun r => by
    rw [← prev_row t h0 r]; exact prev.2.1 r
  have ha : ∀ (r : Fin 1024) (e : Fin 256), ((outsAt0 m c (t.val - 1) (Nat.lt_of_le_of_lt (Nat.sub_le _ _) t.isLt)).2.2.2 : Vec Ideal S1024x256 .f32) (ix2 r e)
      = (run (Args.argQ m c) (Args.argSd m c) (Args.argSrc m c) (Args.argTgt m c) (Args.rowOf t r) ((t.val - 1) % 16)).a e := fun r e => by
    rw [← prev_row t h0 r]; exact prev.2.2 r e
  have key := PointStep.last_point c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (Args.argQ m c) (Args.argSd m c) (Args.argSrc m c) (Args.argTgt m c) (Args.rowOf t) (blk t.val)
    (fun r => run (Args.argQ m c) (Args.argSd m c) (Args.argSrc m c) (Args.argTgt m c) (Args.rowOf t r) ((t.val - 1) % 16))
    (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (H0 t) (H1 t) (H2 t) (H3 t) (H4 t) hm hl ha (fun h => h0 ((hcond0_0 t).mp h)) ((hcond0_1 t).mpr h1)
  rw [outsAt0_C m c t h0 h1]
  dsimp only
  refine (key.2.2.2 r e).trans ?_
  unfold kerOut
  rw [← h1, run_next m c t h0 (Args.rowOf t r)]

end Cert.KernelIdeal.InvCore

end
-- ==== Proof.LibBroadcasts.lean ====
/-
  Three broadcasts read at an entry.

  A scalar splat reads the scalar everywhere.  A vector `[a]` laid as a column `[a, 1]` and then along `b` columns reads,
  at `(n, j)`, the vector at `n`.  A vector `[b]` laid as a row `[1, b]` and then down `a` rows reads, at `(n, j)`, the
  vector at `j`.
-/
import Idealize.ShloMosaic.Lib.Pipeline.Value
import Idealize.ShloMosaic.Lib.ValueIdx

noncomputable section

namespace Cert.Broadcasts

open Idealize.ShloMosaic Idealize.ShloMosaic.ValueIdx

variable {α : Type}

/-- A splat of a scalar reads the scalar at every index. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun q => q.elim0)

/-- A vector laid as a column and then along the columns: at `(n, j)` the vector at `n`. -/
theorem alongColumns_apply {a b : ℕ} (d : (⟨1, ![a]⟩ : Shape).Idx → α)
    (h0 : (⟨1, ![a]⟩ : Shape).BroadcastsInDim ⟨2, ![a, 1]⟩ ![0])
    (h1 : (⟨2, ![a, 1]⟩ : Shape).BroadcastsInDim ⟨2, ![a, b]⟩ ![0, 1]) (n : Fin a) (j : Fin b) :
    broadcastInDim ⟨2, ![a, b]⟩ ![0, 1] h1 (broadcastInDim ⟨2, ![a, 1]⟩ ![0] h0 d) (ix2 n j) = d (ix1 n) := by
  refine (broadcastInDim_apply ![0, 1] h1 _ (ix2 n j) (ix2 n (0 : Fin 1)) (fun q => ?_)).trans ?_
  · match q with
    | ⟨0, _⟩ =>
      show n.val = if a = 1 then 0 else n.val
      by_cases ha : a = 1
      · rw [if_pos ha]; have := n.isLt; omega
      · rw [if_neg ha]
    | ⟨1, _⟩ =>
      show (0 : ℕ) = if (1 : ℕ) = 1 then 0 else j.val
      rw [if_pos rfl]
  · refine broadcastInDim_apply ![0] h0 d (ix2 n (0 : Fin 1)) (ix1 n) (fun q => ?_)
    match q with
    | ⟨0, _⟩ =>
      show n.val = if a = 1 then 0 else n.val
      by_cases ha : a = 1
      · rw [if_pos ha]; have := n.isLt; omega
      · rw [if_neg ha]

/-- A vector laid as a row and then down the rows: at `(n, j)` the vector at `j`. -/
theorem downRows_apply {a b : ℕ} (x : (⟨1, ![b]⟩ : Shape).Idx → α)
    (h0 : (⟨1, ![b]⟩ : Shape).BroadcastsInDim ⟨2, ![1, b]⟩ ![1])
    (h1 : (⟨2, ![1, b]⟩ : Shape).BroadcastsInDim ⟨2, ![a, b]⟩ ![0, 1]) (n : Fin a) (j : Fin b) :
    broadcastInDim ⟨2, ![a, b]⟩ ![0, 1] h1 (broadcastInDim ⟨2, ![1, b]⟩ ![1] h0 x) (ix2 n j) = x (ix1 j) := by
  refine (broadcastInDim_apply ![0, 1] h1 _ (ix2 n j) (ix2 (0 : Fin 1) j) (fun q => ?_)).trans ?_
  · match q with
    | ⟨0, _⟩ =>
      show (0 : ℕ) = if (1 : ℕ) = 1 then 0 else n.val
      rw [if_pos rfl]
    | ⟨1, _⟩ =>
      show j.val = if b = 1 then 0 else j.val
      by_cases hb : b = 1
      · rw [if_pos hb]; have := j.isLt; omega
      · rw [if_neg hb]
  · refine broadcastInDim_apply ![1] h0 x (ix2 (0 : Fin 1) j) (ix1 j) (fun q => ?_)
    match q with
    | ⟨0, _⟩ =>
      show j.val = if b = 1 then 0 else j.val
      by_cases hb : b = 1
      · rw [if_pos hb]; have := j.isLt; omega
      · rw [if_neg hb]

/-- A vector laid as a column: at `(n, u)` the vector at `n`. -/
theorem column_apply {a : ℕ} (d : (⟨1, ![a]⟩ : Shape).Idx → α)
    (h0 : (⟨1, ![a]⟩ : Shape).BroadcastsInDim ⟨2, ![a, 1]⟩ ![0]) (n : Fin a) (u : Fin 1) :
    broadcastInDim ⟨2, ![a, 1]⟩ ![0] h0 d (ix2 n u) = d (ix1 n) := by
  refine broadcastInDim_apply ![0] h0 d (ix2 n u) (ix1 n) (fun q => ?_)
  match q with
  | ⟨0, _⟩ =>
    show n.val = if a = 1 then 0 else n.val
    by_cases ha : a = 1
    · rw [if_pos ha]; have := n.isLt; omega
    · rw [if_neg ha]

end Cert.Broadcasts

end
-- ==== Proof.LibRowVector.lean ====
/-
  A vector laid out as a row. Reshaping a vector of n entries to a [1, n] array and broadcasting it to a [1, n] array
  along the second axis give the same array: entry (0, j) of either is entry j of the vector.
-/
import Idealize.ShloMosaic.Lib.Pipeline.Value
import Idealize.ShloMosaic.Lib.ValueIdx

noncomputable section

namespace Cert.RowVector

open Idealize.ShloMosaic

variable {α : Type} {n : ℕ}

/-- The reshape of a vector to a row, read at an entry: the vector at the entry's column. -/
theorem reshape_apply (x : (⟨1, ![n]⟩ : Shape).Idx → α) (h : (⟨1, ![n]⟩ : Shape).ShapeCasts ⟨2, ![1, n]⟩)
    (j : (⟨2, ![1, n]⟩ : Shape).Idx) : shapeCast ⟨2, ![1, n]⟩ x h j = x (fun a => j a.succ) :=
  shapeCast_addUnit_apply ![n] x h j

/-- The broadcast of a vector to a row along the second axis, read at an entry: the vector at the entry's column. -/
theorem broadcast_apply (x : (⟨1, ![n]⟩ : Shape).Idx → α) (h : (⟨1, ![n]⟩ : Shape).BroadcastsInDim ⟨2, ![1, n]⟩ ![1])
    (j : (⟨2, ![1, n]⟩ : Shape).Idx) : broadcastInDim ⟨2, ![1, n]⟩ ![1] h x j = x (fun a => j a.succ) := by
  refine broadcastInDim_apply ![1] h x j (fun a => j a.succ) (fun a => ?_)
  match a with
  | ⟨0, _⟩ =>
    show (j 1).val = if n = 1 then 0 else (j 1).val
    by_cases h1 : n = 1
    · rw [if_pos h1]
      have hlt : (j 1).val < n := (j 1).isLt
      omega
    · rw [if_neg h1]

/-- The two layouts are one array. -/
theorem reshape_eq_broadcast (x : (⟨1, ![n]⟩ : Shape).Idx → α) (h : (⟨1, ![n]⟩ : Shape).ShapeCasts ⟨2, ![1, n]⟩)
    (hb : (⟨1, ![n]⟩ : Shape).BroadcastsInDim ⟨2, ![1, n]⟩ ![1]) :
    shapeCast ⟨2, ![1, n]⟩ x h = broadcastInDim ⟨2, ![1, n]⟩ ![1] hb x :=
  funext fun j => (reshape_apply x h j).trans (broadcast_apply x hb j).symm

end Cert.RowVector

end
-- ==== Proof.HostIn.lean ====
/-
  What the tiled program's region finds in the arrays it reads, entry by entry.

  Before the region the host computes, from the bandwidths `σ`, the queries `q`, the targets `t` and the sources:

  * the scale `s = 1 / ((2 σ) σ)`, kept as a column `[4096, 1]`;
  * the pre-scaled queries `q · (2 s)`, with `2 s` laid as a column and then along the 256 columns;
  * the targets' squared norms `0 + Σ_d t k d · t k d`, kept as a row `[1, 16384]`;
  * the sources in a narrower float format, which on extended reals is no change;

  and leaves the targets themselves as they were. Each array is written once over plain operands, read at an
  entry by the layout operations' reading lemmas, and identified with the specification's `scale`, `qs`, `tsq`;
  the buffers' contents at the region's entry are those arrays of the launch contents.
-/
import proofs.«103823_j66314295050701_2_alg».proof.Proof.Gen.KernelIdeal.Frame.Runs
import proofs.«103823_j66314295050701_2_alg».proof.Proof.Args
import proofs.«103823_j66314295050701_2_alg».proof.Proof.Spec
import Idealize.ShloMosaic.Lib.StableHlo.Run
import Idealize.ShloMosaic.Lib.ValueIdx
import Idealize.ShloMosaic.PureOps.Ideal.Laws
import proofs.«103823_j66314295050701_2_alg».proof.Proof.LibBroadcasts
import proofs.«103823_j66314295050701_2_alg».proof.Proof.LibColumn
import proofs.«103823_j66314295050701_2_alg».proof.Proof.LibRowVector

noncomputable section

namespace Cert.KernelIdeal.HostIn

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ) (c : Dev nD)

/-! ### The host's arrays, over plain operands, read at an entry -/

/-- The host's quotient at an entry is the extended reals' division of the entries. -/
theorem hostDivf_apply {s : Shape} {φ : FTy} (a b : FVec Ideal s φ) (i : s.Idx) :
    Host.divf a b i = Ideal.div (a i) (b i) := rfl

/-- `1 / ((2 σ) σ)`, entry by entry. -/
def scaleArr (sd : FVec Ideal S4096 .f32) : FVec Ideal S4096 .f32 :=
  Host.divf (broadcastInDim S4096 ![] bcast_S_S4096 (constant (F := Ideal) S_ .f32 0x3F800000#32))
    (mulf (mulf (broadcastInDim S4096 ![] bcast_S_S4096 (constant (F := Ideal) S_ .f32 0x40000000#32)) sd) sd)

theorem scaleArr_apply (sd : FVec Ideal S4096 .f32) (n : Fin 4096) :
    scaleArr sd (ix1 n) = Cert.KernelMean.scale (fun n => sd (ix1 n)) n := by
  unfold scaleArr
  rw [hostDivf_apply, mulf_apply, mulf_apply, Cert.Broadcasts.splat_apply, Cert.Broadcasts.splat_apply,
    constant_apply, constant_apply]
  rfl

/-- The query scaled by `2 s`: `s` laid as a column and along the 256 columns. -/
def qsArr (q : FVec Ideal S4096x256 .f32) (sd : FVec Ideal S4096 .f32) : FVec Ideal S4096x256 .f32 :=
  mulf q (broadcastInDim S4096x256 ![0, 1] bcast_S4096x1_S4096x256_0_1
    (broadcastInDim S4096x1 ![0] bcast_S4096_S4096x1_0
      (mulf (broadcastInDim S4096 ![] bcast_S_S4096 (constant (F := Ideal) S_ .f32 0x40000000#32)) (scaleArr sd))))

theorem qsArr_apply (q : FVec Ideal S4096x256 .f32) (sd : FVec Ideal S4096 .f32) (n : Fin 4096) (d : Fin 256) :
    qsArr q sd (ix2 n d) = Cert.KernelMean.qs (fun n d => q (ix2 n d)) (fun n => sd (ix1 n)) n d := by
  unfold qsArr
  rw [mulf_apply, Cert.Broadcasts.alongColumns_apply, mulf_apply, Cert.Broadcasts.splat_apply, constant_apply,
    scaleArr_apply]
  rfl

/-- `s` as a column. -/
def scaleCol (sd : FVec Ideal S4096 .f32) : FVec Ideal S4096x1 .f32 :=
  shapeCast S4096x1 (scaleArr sd) shapeCasts_S4096_S4096x1

theorem scaleCol_apply (sd : FVec Ideal S4096 .f32) (n : Fin 4096) (u : Fin 1) :
    scaleCol sd (ix2 n u) = Cert.KernelMean.scale (fun n => sd (ix1 n)) n := by
  unfold scaleCol
  rw [Cert.GraphConv.Column.shapeCast_a_a1_apply, scaleArr_apply]

/-- The targets' squared norms as a row. -/
def tsqRow (t : FVec Ideal S16384x256 .f32) : FVec Ideal S1x16384 .f32 :=
  shapeCast S1x16384 (Host.reduceAdd (mulf t t) (constant (F := Ideal) S_ .f32 0x00000000#32)
    reducesTo_S16384x256_S16384_d1 h_S_) shapeCasts_S16384_S1x16384

theorem reduces_tgt : S16384x256.Reduces [1] S16384 := by decide

/-- A vector reshaped to a row reads, at `(u, k)`, the vector at `k`. -/
theorem rowCast_apply {α : Type} {n : ℕ} (x : (⟨1, ![n]⟩ : Shape).Idx → α)
    (h : (⟨1, ![n]⟩ : Shape).ShapeCasts ⟨2, ![1, n]⟩) (u : Fin 1) (k : Fin n) :
    shapeCast ⟨2, ![1, n]⟩ x h (ix2 u k) = x (ix1 k) :=
  (Cert.RowVector.reshape_apply x h (ix2 u k)).trans
    (congrArg x (funext fun a => by match a with | ⟨0, _⟩ => rfl))

theorem tsqRow_apply (t : FVec Ideal S16384x256 .f32) (u : Fin 1) (k : Fin 16384) :
    tsqRow t (ix2 u k) = Cert.KernelMean.tsq (fun k d => t (ix2 k d)) k := by
  unfold tsqRow
  rw [rowCast_apply]
  simp only [Host.reduceAdd, Ideal.hostReduceAdd_def]
  rw [Ideal.hostReduceAdd_single reducesTo_S16384x256_S16384_d1 reduces_tgt, constant_apply]
  unfold Cert.KernelMean.tsq Cert.KernelMean.zero
  refine congrArg (_ + ·) (Finset.sum_congr rfl fun d _ => ?_)
  rw [mulf_apply]
  have hi : reduces_tgt.lift (ix1 k) d = ix2 k (⟨d.val, d.isLt⟩ : Fin 256) :=
    funext fun a => Fin.ext (by match a with | ⟨0, _⟩ => rfl | ⟨1, _⟩ => rfl)
  rw [hi]
  rfl

/-! ### What the region finds in each array: the host operations before it, composed -/

section Found
open Idealize.ShloMosaic.StableHlo

theorem V_v9 : (V m c main_v9 : S4096x256.Idx → EReal)
    = qsArr (m ((c : Thread nD τ).loc main_arg0)) (m ((c : Thread nD τ).loc main_arg1)) := by
  dsimp only [V, hostOps0]; after_results; rfl

theorem V_v10 : (V m c main_v10 : S4096x1.Idx → EReal) = scaleCol (m ((c : Thread nD τ).loc main_arg1)) := by
  dsimp only [V, hostOps0]; after_results; rfl

theorem V_v13 : (V m c main_v13 : S1x16384.Idx → EReal) = tsqRow (m ((c : Thread nD τ).loc main_arg3)) := by
  dsimp only [V, hostOps0]; after_results; rfl

theorem V_v14 : (V m c main_v14 : S16384x256.Idx → Elt Ideal .bf16)
    = (truncf (F := Ideal) .bf16 (m ((c : Thread nD τ).loc main_arg2) : FVec Ideal S16384x256 .f32) bitsLt_bf16_f32
        : FVec Ideal S16384x256 .bf16) := by
  dsimp only [V, hostOps0]; after_results

end Found

/-- The pre-scaled queries. -/
theorem qs_in (n : Fin 4096) (d : Fin 256) :
    (V m c main_v9 : S4096x256.Idx → EReal) (ix2 n d) = Cert.KernelMean.qs (Args.argQ m c) (Args.argSd m c) n d :=
  (congrFun (V_v9 m c) (ix2 n d)).trans (qsArr_apply _ _ n d)

/-- The scales, as a column. -/
theorem scale_in (n : Fin 4096) (u : Fin 1) :
    (V m c main_v10 : S4096x1.Idx → EReal) (ix2 n u) = Cert.KernelMean.scale (Args.argSd m c) n :=
  (congrFun (V_v10 m c) (ix2 n u)).trans (scaleCol_apply _ n u)

/-- The targets: no host operation writes them. -/
theorem tgt_in (k : Fin 16384) (d : Fin 256) :
    (V m c main_arg3 : S16384x256.Idx → EReal) (ix2 k d) = Args.argTgt m c k d :=
  congrArg (fun f : S16384x256.Idx → EReal => f (ix2 k d)) (V_main_arg3 m c)

/-- The targets' squared norms, as a row. -/
theorem tsq_in (u : Fin 1) (k : Fin 16384) :
    (V m c main_v13 : S1x16384.Idx → EReal) (ix2 u k) = Cert.KernelMean.tsq (Args.argTgt m c) k :=
  (congrFun (V_v13 m c) (ix2 u k)).trans (tsqRow_apply _ u k)

/-- The sources: their change of format is the identity on extended reals. -/
theorem src_in (k : Fin 16384) (e : Fin 256) :
    (V m c main_v14 : S16384x256.Idx → Elt Ideal .bf16) (ix2 k e) = Args.argSrc m c k e :=
  congrFun (V_v14 m c) (ix2 k e)

end Cert.KernelIdeal.HostIn

end
-- ==== Proof.Blocks.lean ====
/-
  The windows' blocks, coordinate by coordinate.

  Grid point `t` (of 64, row-major over a 4 × 16 grid) reads block `t / 16` of the arrays indexed by query rows and
  block `t % 16` of the arrays indexed by columns; an entry of a block sits in its array at block index × block size
  plus the entry's own coordinate. The output's block is written back only at the last column block, `t % 16 = 15`;
  the four points that do so have the four row blocks, which between them hold every index of the output.
-/
import proofs.«103823_j66314295050701_2_alg».proof.Proof.Gen.KernelIdeal.Frame
import proofs.«103823_j66314295050701_2_alg».proof.Proof.Args
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- The index maps, over the grid: the arrays indexed by query rows move with `t / 16`, those indexed by columns with
    `t % 16`, and the other axis stays at block 0. -/
theorem idx_facts : ∀ t : Fin cfg0.N,
    win0_0.index t (0 : Fin 2) = t.val / 16 ∧ win0_0.index t (1 : Fin 2) = 0
    ∧ win0_1.index t (0 : Fin 2) = t.val / 16 ∧ win0_1.index t (1 : Fin 2) = 0
    ∧ win0_2.index t (0 : Fin 2) = t.val % 16 ∧ win0_2.index t (1 : Fin 2) = 0
    ∧ win0_3.index t (0 : Fin 2) = 0 ∧ win0_3.index t (1 : Fin 2) = t.val % 16
    ∧ win0_4.index t (0 : Fin 2) = t.val % 16 ∧ win0_4.index t (1 : Fin 2) = 0
    ∧ win0_5.index t (0 : Fin 2) = t.val / 16 ∧ win0_5.index t (1 : Fin 2) = 0 :=
  (by decide +kernel : ∀ t : Fin grid0.N, _)

/-- Entry `(r, d)` of the scaled queries' block at `t` is entry `(rowOf t r, d)` of the array. -/
theorem blk0 (t : Fin cfg0.N) (r : Fin 1024) (d : Fin 256) :
    iblk m c 0 t (ix2 r d) = (V m c main_v9 : S4096x256.Idx → EReal) (ix2 (Args.rowOf t r) d) := by
  show V m c main_v9 (((cfg0.win 0).blk t).view.emb (ix2 r d)) = _
  refine congrArg (V m c main_v9) ?_
  obtain ⟨e0, e1, -⟩ := idx_facts t
  funext a; apply Fin.ext
  match a with
  | ⟨0, _⟩ => show win0_0.index t (0 : Fin 2) * 1024 + 1 * r.val = t.val / 16 * 1024 + r.val; omega
  | ⟨1, _⟩ => show win0_0.index t (1 : Fin 2) * 256 + 1 * d.val = d.val; omega

/-- Entry `(r, 0)` of the scales' block at `t` is entry `(rowOf t r, 0)` of the column of scales. -/
theorem blk1 (t : Fin cfg0.N) (r : Fin 1024) (u : Fin 1) :
    iblk m c 1 t (ix2 r u) = (V m c main_v10 : S4096x1.Idx → EReal) (ix2 (Args.rowOf t r) u) := by
  show V m c main_v10 (((cfg0.win 1).blk t).view.emb (ix2 r u)) = _
  refine congrArg (V m c main_v10) ?_
  obtain ⟨-, -, e0, e1, -⟩ := idx_facts t
  funext a; apply Fin.ext
  match a with
  | ⟨0, _⟩ => show win0_1.index t (0 : Fin 2) * 1024 + 1 * r.val = t.val / 16 * 1024 + r.val; omega
  | ⟨1, _⟩ => show win0_1.index t (1 : Fin 2) * 1 + 1 * u.val = u.val; omega

/-- Entry `(k, d)` of the targets' block at `t` is entry `(colOf t k, d)` of the array. -/
theorem blk2 (t : Fin cfg0.N) (k : Fin 1024) (d : Fin 256) :
    iblk m c 2 t (ix2 k d) = (V m c main_arg3 : S16384x256.Idx → EReal) (ix2 (Args.colOf t k) d) := by
  show V m c main_arg3 (((cfg0.win 2).blk t).view.emb (ix2 k d)) = _
  refine congrArg (V m c main_arg3) ?_
  obtain ⟨-, -, -, -, e0, e1, -⟩ := idx_facts t
  funext a; apply Fin.ext
  match a with
  | ⟨0, _⟩ => show win0_2.index t (0 : Fin 2) * 1024 + 1 * k.val = t.val % 16 * 1024 + k.val; omega
  | ⟨1, _⟩ => show win0_2.index t (1 : Fin 2) * 256 + 1 * d.val = d.val; omega

/-- Entry `(0, k)` of the squared norms' block at `t` is entry `(0, colOf t k)` of the row of squared norms. -/
theorem blk3 (t : Fin cfg0.N) (u : Fin 1) (k : Fin 1024) :
    iblk m c 3 t (ix2 u k) = (V m c main_v13 : S1x16384.Idx → EReal) (ix2 u (Args.colOf t k)) := by
  show V m c main_v13 (((cfg0.win 3).blk t).view.emb (ix2 u k)) = _
  refine congrArg (V m c main_v13) ?_
  obtain ⟨-, -, -, -, -, -, e0, e1, -⟩ := idx_facts t
  funext a; apply Fin.ext
  match a with
  | ⟨0, _⟩ => show win0_3.index t (0 : Fin 2) * 1 + 1 * u.val = u.val; omega
  | ⟨1, _⟩ => show win0_3.index t (1 : Fin 2) * 1024 + 1 * k.val = t.val % 16 * 1024 + k.val; omega

/-- Entry `(k, e)` of the sources' block at `t` is entry `(colOf t k, e)` of the array. -/
theorem blk4 (t : Fin cfg0.N) (k : Fin 1024) (e : Fin 256) :
    iblk m c 4 t (ix2 k e) = (V m c main_v14 : S16384x256.Idx → Elt Ideal .bf16) (ix2 (Args.colOf t k) e) := by
  show V m c main_v14 (((cfg0.win 4).blk t).view.emb (ix2 k e)) = _
  refine congrArg (V m c main_v14) ?_
  obtain ⟨-, -, -, -, -, -, -, -, e0, e1, -⟩ := idx_facts t
  funext a; apply Fin.ext
  match a with
  | ⟨0, _⟩ => show win0_4.index t (0 : Fin 2) * 1024 + 1 * k.val = t.val % 16 * 1024 + k.val; omega
  | ⟨1, _⟩ => show win0_4.index t (1 : Fin 2) * 256 + 1 * e.val = e.val; omega

/-- Entry `(r, e)` of the output's block at `t` sits at `(rowOf t r, e)` of the output. -/
theorem emb5 (t : Fin cfg0.N) (r : Fin 1024) (e : Fin 256) :
    ((cfg0.win 5).blk t).view.emb (ix2 r e) = (ix2 (Args.rowOf t r) e : S4096x256.Idx) := by
  obtain ⟨-, -, -, -, -, -, -, -, -, -, e0, e1⟩ := idx_facts t
  funext a; apply Fin.ext
  match a with
  | ⟨0, _⟩ => show win0_5.index t (0 : Fin 2) * 1024 + 1 * r.val = t.val / 16 * 1024 + r.val; omega
  | ⟨1, _⟩ => show win0_5.index t (1 : Fin 2) * 256 + 1 * e.val = e.val; omega

/-- An index of the output is in point `t`'s block iff each coordinate is in the block's range on its axis. -/
theorem mem_blk5 (t : Fin cfg0.N) (i : S4096x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v15).slice (win0_5.rect t)).set ↔ _
  rw [View.set_slice_whole, Rect.mem_set_unit]
  exact Iff.rfl

/-- The output's block is written back exactly at the points of the last column block. -/
theorem flush5_iff (t : Fin cfg0.N) : (cfg0.win 5).flush t = true ↔ t.val % 16 = 15 :=
  (by decide +kernel : ∀ t : Fin grid0.N, (cfg0.win 5).flush t = true ↔ t.val % 16 = 15) t

/-- Every index of the output is in the block of a point that writes it back: row `n` in that of point
    `16 · (n / 1024) + 15`. -/
theorem cover5 (i : S4096x256.Idx) :
    ∃ t : Fin cfg0.N, (cfg0.win 5).flush t = true ∧ i ∈ ((cfg0.win 5).blk t).view.set := by
  have hi0 : (i 0).val < 4096 := (i 0).isLt
  have hi1 : (i 1).val < 256 := (i 1).isLt
  have hN : cfg0.N = 64 := N_0
  obtain ⟨t, ht⟩ : ∃ t : Fin cfg0.N, t.val = 16 * ((i 0).val / 1024) + 15 := ⟨⟨16 * ((i 0).val / 1024) + 15, by omega⟩, rfl⟩
  obtain ⟨-, -, -, -, -, -, -, -, -, -, e0, e1⟩ := idx_facts t
  refine ⟨t, (flush5_iff t).2 (by omega), ?_⟩
  rw [mem_blk5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 256 ≤ (i 1).val ∧ (i 1).val < win0_5.index t (1 : Fin 2) * 256 + 256; omega

end Cert.KernelIdeal.Blocks

end
-- ==== Proof.Invariant.lean ====
/-
  At a last-column grid point the output block holds the result.

  The input blocks of a grid point are blocks of the arrays the region finds (the pre-scaled queries, the scales, the
  targets, their squared norms, the sources), which are the host's operations of the arguments; so they hold, entry by
  entry, what the row recurrence reads, and the invariant along the grid applies.
-/
import proofs.«103823_j66314295050701_2_alg».proof.Proof.InvCore
import proofs.«103823_j66314295050701_2_alg».proof.Proof.HostIn
import proofs.«103823_j66314295050701_2_alg».proof.Proof.Blocks

noncomputable section

namespace Cert.KernelIdeal.Invariant

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- At a last-column grid point the output block holds the result's entries of the point's row block. -/
theorem out_block (c : Dev nD) (t : Fin cfg0.N) (h1 : t.val % 16 = 15) (r : Fin 1024) (e : Fin 256) :
    ((outsAt0 m c t.val t.isLt).1 : S1024x256.Idx → EReal) (ix2 r e) = Args.result m c (ix2 (Args.rowOf t r) e) := by
  rw [Args.result_ix2]
  exact InvCore.out_last m c
    (fun t r d => (Blocks.blk0 m c t r d).trans (HostIn.qs_in m c (Args.rowOf t r) d))
    (fun t r => (Blocks.blk1 m c t r (0 : Fin 1)).trans (HostIn.scale_in m c (Args.rowOf t r) (0 : Fin 1)))
    (fun t k d => (Blocks.blk2 m c t k d).trans (HostIn.tgt_in m c (Args.colOf t k) d))
    (fun t k => (Blocks.blk3 m c t (0 : Fin 1) k).trans (HostIn.tsq_in m c (0 : Fin 1) (Args.colOf t k)))
    (fun t k e => (Blocks.blk4 m c t k e).trans (HostIn.src_in m c (Args.colOf t k) e))
    t h1 r e

end Cert.KernelIdeal.Invariant

end
-- ==== Proof.KernelRun.lean ====
/-
  From the blocks to the array, and the kernel's run.

  Output window 5 writes back at the grid points of the last column block (`t % 16 = 15`) only, and there the block it
  writes is the result's entries of the point's row block.  The four row blocks tile the 4096 × 256 array, so after the
  run the output array is the result array; the argument arrays are as launched.
-/
import proofs.«103823_j66314295050701_2_alg».proof.Proof.Gen.KernelIdeal.Value
import proofs.«103823_j66314295050701_2_alg».proof.Proof.Args
import proofs.«103823_j66314295050701_2_alg».proof.Proof.Invariant
import proofs.«103823_j66314295050701_2_alg».proof.Proof.Blocks
import Idealize.ShloMosaic.Lib.Pipeline.Value

noncomputable section

namespace Cert.KernelIdeal.KernelRun

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- What a grid point of the last column block writes back is its block of the result array: the window is not cut,
    entry `(r, e)` of the block the point leaves is the result at the point's row `r`, and that is where entry
    `(r, e)` of the block sits in the array. -/
theorem flushed_eq (c : Dev nD) (t : Fin cfg0.N) (h1 : t.val % 16 = 15) :
    (dats m 0 c).flushed 5 t = ((cfg0.win 5).blk t).view.read (Elt Ideal) (Args.result m c) := by
  rw [Value.flushed5]
  funext j
  obtain ⟨r, e, rfl⟩ : ∃ (r : Fin 1024) (e : Fin 256), j = ix2 r e := ⟨j 0, j 1, eq_ix2 j⟩
  have hx : (cfg0.win 5).xinj (grid0.coords t) (ix2 r e) = (ix2 r e : S1024x256.Idx) := by
    funext a; match a with | ⟨0, _⟩ => rfl | ⟨1, _⟩ => rfl
  show ((outsAt0 m c t.val t.isLt).1 : S1024x256.Idx → EReal) ((cfg0.win 5).xinj (grid0.coords t) (ix2 r e))
    = Args.result m c (((cfg0.win 5).blk t).view.emb (ix2 r e))
  rw [hx, Blocks.emb5 t r e, Invariant.out_block m c t h1 r e]

/-- After the run the output array is the result array: every index is in the block of some point that writes back. -/
theorem final5 (c : Dev nD) : (dats m 0 c).arrAt 5 cfg0.N = Args.result m c :=
  (dats m 0 c).arrAt_eq_of_cover 5 (Args.result m c)
    (fun t ht => flushed_eq m c t ((Blocks.flush5_iff t).mp ht)) Blocks.cover5

/-- The kernel's run: the output array at the result array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v15) = Args.result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final5 m c), (h c).2⟩) (Cert.KernelIdeal.Value.run_blocks m ρ)

end Cert.KernelIdeal.KernelRun

end
-- ==== Proof.RefValue.lean ====
/-
  The direct program, read one element at a time, is the specification's `refOut`.

  The generated module gives, for each operation of the direct program, the element it writes at an index in
  terms of its operands' elements. Followed from the result backwards at indices built from coordinates, these
  readings are, in turn:

  * the squared norms `‖q n‖²`, `‖t k‖²` (a row sum started from `0`) and the inner product `q n · t k`;
  * the logit `(-((‖q n‖² + ‖t k‖²) - 2 (q n · t k))) / (2 (σ n · σ n))`;
  * the row maximum: the one operation read here from its definition, a fold of `max` from `-∞` over the
    column coordinate, compared once more with `-∞`;
  * the shifted exponentials, their row sum started from `0`, the weights `e / l` entry by entry;
  * the final contraction over the 16384 columns against the source rows.

  Each stage is stated at `ix1` / `ix2` indices and identified with the specification's name for it
  (`qsq`, `tsq`, `cross`, `refLogit`, `refMax`, `refE`, `refL`, `refOut`); at the extended reals every
  operation of the program is the extended reals' own, so once the indices agree the two sides are the same term.
-/
import proofs.«103823_j66314295050701_2_alg».proof.Proof.Gen.ReferenceIdeal.Read
import proofs.«103823_j66314295050701_2_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open scoped BigOperators

variable (x0 : FVec Ideal S4096x256 .f32) (x1 : FVec Ideal S4096 .f32) (x2 x3 : FVec Ideal S16384x256 .f32)

/-! ### Index bookkeeping: the generated index functions at coordinate-built indices -/

theorem idx_v1 (n : Fin 4096) (d : Fin 256) : idx_main_v1 (ix1 n) d = ix2 n d :=
  funext fun a => by match a with | ⟨0, _⟩ => rfl | ⟨1, _⟩ => rfl

theorem idx_v4 (k : Fin 16384) (d : Fin 256) : idx_main_v4 (ix1 k) d = ix2 k d :=
  funext fun a => by match a with | ⟨0, _⟩ => rfl | ⟨1, _⟩ => rfl

theorem lidx_v6 (n : Fin 4096) (k : Fin 16384) (d : Fin 256) : lidx_main_v6 (ix2 n k) d = ix2 n d :=
  funext fun a => by match a with | ⟨0, _⟩ => rfl | ⟨1, _⟩ => rfl

theorem ridx_v6 (n : Fin 4096) (k : Fin 16384) (d : Fin 256) : idx_main_v5 (ridx_main_v6 (ix2 n k) d) = ix2 k d :=
  funext fun a => by match a with | ⟨0, _⟩ => rfl | ⟨1, _⟩ => rfl

/-- The query's squared norm. -/
theorem qsq_at (n : Fin 4096) :
    val_main_v1 (F := Ideal) x0 (ix1 n) = Cert.KernelMean.qsq (fun n d => x0 (ix2 n d)) n := by
  rw [val_main_v1_apply, val_main_cst_apply]
  unfold Cert.KernelMean.qsq Cert.KernelMean.zero
  refine congrArg (_ + ·) (Finset.sum_congr rfl fun d _ => ?_)
  rw [val_main_v0_apply, idx_v1]
  rfl

/-- A target row's squared norm. -/
theorem tsq_at (k : Fin 16384) :
    val_main_v4 (F := Ideal) x3 (ix1 k) = Cert.KernelMean.tsq (fun k d => x3 (ix2 k d)) k := by
  rw [val_main_v4_apply, val_main_cst_0_apply]
  unfold Cert.KernelMean.tsq Cert.KernelMean.zero
  refine congrArg (_ + ·) (Finset.sum_congr rfl fun d _ => ?_)
  rw [val_main_v3_apply, idx_v4]
  rfl

/-- The inner product of a query row and a target row. -/
theorem cross_at (n : Fin 4096) (k : Fin 16384) :
    val_main_v6 (F := Ideal) x0 x3 (ix2 n k)
      = Cert.KernelMean.cross (fun n d => x0 (ix2 n d)) (fun k d => x3 (ix2 k d)) n k := by
  rw [val_main_v6_apply]
  unfold Cert.KernelMean.cross
  refine Finset.sum_congr rfl fun d _ => ?_
  rw [val_main_v5_apply, lidx_v6, ridx_v6]

theorem idx_v2_v8 (n : Fin 4096) (k : Fin 16384) : idx_main_v2 (idx_main_v8 (ix2 n k)) = ix1 n :=
  funext fun a => by match a with | ⟨0, _⟩ => rfl

theorem idx_v7_v9 (n : Fin 4096) (k : Fin 16384) : idx_main_v7 (idx_main_v9 (ix2 n k)) = ix1 k :=
  funext fun a => by match a with | ⟨0, _⟩ => rfl

theorem idx_v15_v19 (n : Fin 4096) (k : Fin 16384) : idx_main_v15 (idx_main_v19 (ix2 n k)) = ix1 n :=
  funext fun a => by match a with | ⟨0, _⟩ => rfl

/-- The logit of row `n` against column `k`. -/
theorem logit_at (n : Fin 4096) (k : Fin 16384) :
    val_main_v20 (F := Ideal) x0 x1 x3 (ix2 n k)
      = Cert.KernelMean.refLogit (fun n d => x0 (ix2 n d)) (fun n => x1 (ix1 n)) (fun k d => x3 (ix2 k d)) n k := by
  rw [val_main_v20_apply, val_main_v14_apply, val_main_v13_apply, val_main_v10_apply, val_main_v12_apply,
    val_main_v8_apply, val_main_v2_apply, idx_v2_v8, qsq_at,
    val_main_v9_apply, val_main_v7_apply, idx_v7_v9, tsq_at,
    val_main_v11_apply, val_main_cst_1_apply, cross_at,
    val_main_v19_apply, val_main_v18_apply, val_main_v17_apply, val_main_cst_2_apply, val_main_v16_apply,
    val_main_v15_apply, idx_v15_v19]
  rfl

/-- The row axis of the logits' matrix is what the maximum runs along. -/
theorem reduces_row : S4096x16384.Reduces [1] S4096 := by decide

/-- Row index `n` with column `k` put back is `(n, k)`. -/
theorem lift_row (n : Fin 4096) (k : Fin (S4096x16384.size 1)) :
    reduces_row.lift (ix1 n) k = ix2 n (⟨k.val, k.isLt⟩ : Fin 16384) := by
  funext c; apply Fin.ext
  fin_cases c <;> rfl

/-- The row maximum of the logits, with the `-∞` it is compared against once more. -/
theorem max_at (n : Fin 4096) :
    val_main_v23 (F := Ideal) x0 x1 x3 (ix1 n)
      = Cert.KernelMean.refMax (fun n d => x0 (ix2 n d)) (fun n => x1 (ix1 n)) (fun k d => x3 (ix2 k d)) n := by
  rw [val_main_v23_apply, val_main_v22_apply, val_main_cst_4_apply]
  unfold val_main_v21
  rw [Host.reduce_eq_fold_single FloatOps.maximumf _ _ reducesTo_S4096x16384_S4096_d1 reduces_row h_S_, val_main_cst_3_apply]
  have hf : (val_main_v20 (F := Ideal) x0 x1 x3 ∘ reduces_row.lift (ix1 n))
      = fun k : Fin 16384 => Cert.KernelMean.refLogit (fun n d => x0 (ix2 n d)) (fun n => x1 (ix1 n)) (fun k d => x3 (ix2 k d)) n k :=
    funext fun k => by
      show val_main_v20 (F := Ideal) x0 x1 x3 (reduces_row.lift (ix1 n) k) = _
      rw [lift_row, logit_at]
      rfl
  rw [hf]
  rfl

theorem idx_v24_v25 (n : Fin 4096) (k : Fin 16384) : idx_main_v24 (idx_main_v25 (ix2 n k)) = ix1 n :=
  funext fun a => by match a with | ⟨0, _⟩ => rfl

theorem idx_v28 (n : Fin 4096) (k : Fin 16384) : idx_main_v28 (ix1 n) k = ix2 n k :=
  funext fun a => by match a with | ⟨0, _⟩ => rfl | ⟨1, _⟩ => rfl

theorem idx_v29_v30 (n : Fin 4096) (k : Fin 16384) : idx_main_v29 (idx_main_v30 (ix2 n k)) = ix1 n :=
  funext fun a => by match a with | ⟨0, _⟩ => rfl

theorem lidx_v32 (n : Fin 4096) (e : Fin 256) (k : Fin 16384) : lidx_main_v32 (ix2 n e) k = ix2 n k :=
  funext fun a => by match a with | ⟨0, _⟩ => rfl | ⟨1, _⟩ => rfl

theorem ridx_v32 (n : Fin 4096) (e : Fin 256) (k : Fin 16384) : ridx_main_v32 (ix2 n e) k = ix2 k e :=
  funext fun a => by match a with | ⟨0, _⟩ => rfl | ⟨1, _⟩ => rfl

/-- The exponential of a logit shifted by its row's maximum. -/
theorem exp_at (n : Fin 4096) (k : Fin 16384) :
    val_main_v27 (F := Ideal) x0 x1 x3 (ix2 n k)
      = Cert.KernelMean.refE (fun n d => x0 (ix2 n d)) (fun n => x1 (ix1 n)) (fun k d => x3 (ix2 k d)) n k := by
  rw [val_main_v27_apply, val_main_v26_apply, logit_at, val_main_v25_apply, val_main_v24_apply, idx_v24_v25, max_at]
  rfl

/-- The row sum of the shifted exponentials. -/
theorem rowsum_at (n : Fin 4096) :
    val_main_v28 (F := Ideal) x0 x1 x3 (ix1 n)
      = Cert.KernelMean.refL (fun n d => x0 (ix2 n d)) (fun n => x1 (ix1 n)) (fun k d => x3 (ix2 k d)) n := by
  rw [val_main_v28_apply, val_main_cst_5_apply]
  unfold Cert.KernelMean.refL Cert.KernelMean.zero
  refine congrArg (_ + ·) (Finset.sum_congr rfl fun k _ => ?_)
  rw [idx_v28, exp_at]

/-- The softmax weight of column `k` in row `n`. -/
theorem weight_at (n : Fin 4096) (k : Fin 16384) :
    val_main_v31 (F := Ideal) x0 x1 x3 (ix2 n k)
      = Ideal.div (Cert.KernelMean.refE (fun n d => x0 (ix2 n d)) (fun n => x1 (ix1 n)) (fun k d => x3 (ix2 k d)) n k)
          (Cert.KernelMean.refL (fun n d => x0 (ix2 n d)) (fun n => x1 (ix1 n)) (fun k d => x3 (ix2 k d)) n) := by
  rw [val_main_v31_apply, exp_at, val_main_v30_apply, val_main_v29_apply, idx_v29_v30, rowsum_at]
  rfl

/-- The direct program's result is the softmax-weighted mean of the source rows, spelled as the specification
    spells it. -/
theorem ref_eq (n : Fin 4096) (e : Fin 256) :
    val_main_v32 (F := Ideal) x0 x1 x2 x3 (ix2 n e)
      = Cert.KernelMean.refOut (fun n d => x0 (ix2 n d)) (fun n => x1 (ix1 n))
          (fun k e => x2 (ix2 k e)) (fun k d => x3 (ix2 k d)) n e := by
  rw [val_main_v32_apply]
  unfold Cert.KernelMean.refOut
  refine Finset.sum_congr rfl fun k _ => ?_
  rw [lidx_v32, ridx_v32, weight_at]

end Cert.ReferenceIdeal.RefValue

end
-- ==== Proof.PreReal.lean ====
/-
  The precondition, read back: every entry of the four arrays is a real number, and no bandwidth is zero.

  The predicate is the conjunction of five `all`-reductions: `|x| < +∞` at every entry of each of the four arrays, and
  `|σ| > 0` at every entry of the bandwidth vector. A conjunction that is 1 has both sides 1; an `all` that is 1 has a 1 at
  every entry; on the extended reals `|x| = max x (-x)`, which is below `+∞` only at a real `x` and above `0` only
  at a nonzero `x`.
-/
import proofs.«103823_j66314295050701_2_alg».proof.Pre_finite_inputs
import Idealize.ShloMosaic.Lib.ReduceAll
import Idealize.ShloMosaic.Lib.ValueIdx
import Idealize.ShloMosaic.PureOps.Ideal.Laws

noncomputable section

namespace Cert.Pre_finite_inputs.Decode

open Idealize.ShloMosaic Idealize.ShloMosaic.ValueIdx

/-- The rank-0 shape has one index. -/
instance : Subsingleton S_.Idx := ⟨fun a b => funext fun d => d.elim0⟩

/-- The word `0x7F800000` denotes `+∞`. -/
theorem ofBits_inf : Ideal.ofBits .f32 0x7F800000#32 = ⊤ := by simp [Ideal.ofBits, Ideal.ieee]

/-- A truth value's word is 1 exactly when the value is true. -/
theorem ofBool_eq_one (b : Bool) : BitVec.ofBool b = 1#1 ↔ b = true := by cases b <;> decide

/-- `max x (-x) < +∞` holds only at a real `x`. -/
theorem real_of_abs_lt_top (x : EReal) (h : max x (-x) < ⊤) : ∃ r : ℝ, x = (r : EReal) := by
  induction x using EReal.rec with
  | bot => simp at h
  | top => simp at h
  | coe r => exact ⟨r, rfl⟩

/-- An entry at which `|x| < +∞` compares true is a real. -/
theorem real_of_cmp {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = (r : EReal) := by
  have h' : BitVec.ofBool (decide (max (x i) (-(x i)) < Ideal.ofBits .f32 0x7F800000#32)) = 1#1 := h
  rw [ofBool_eq_one, decide_eq_true_eq, ofBits_inf] at h'
  exact real_of_abs_lt_top _ h'

/-- An entry at which `|x| > 0` compares true is not zero. -/
theorem ne_zero_of_cmp {s : Shape} (x : FVec Ideal s .f32) (hb : S_.BroadcastsInDim s (![] : Fin 0 → Fin s.rank)) (i : s.Idx)
    (h : cmpf .ogt (Host.absf x) (broadcastInDim s ![] hb (constant (F := Ideal) S_ .f32 0x00000000#32)) i = 1#1) :
    x i ≠ 0 := by
  have h' : BitVec.ofBool (decide (Ideal.ofBits .f32 0x00000000#32 < max (x i) (-(x i)))) = 1#1 := h
  rw [ofBool_eq_one, decide_eq_true_eq, Ideal.ofBits_zero_f32] at h'
  exact (Ideal.zero_lt_max_neg_iff _).1 h'

/-- The precondition holds only of arrays of reals with every bandwidth nonzero. -/
theorem reals_of_pre [Cert.Pre_finite_inputs.Facts]
    (a0 : FVec Ideal Cert.Pre_finite_inputs.S4096x256 .f32) (a1 : FVec Ideal Cert.Pre_finite_inputs.S4096 .f32)
    (a2 a3 : FVec Ideal Cert.Pre_finite_inputs.S16384x256 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, a1 i ≠ 0)
      ∧ (∀ i, ∃ r : ℝ, a2 i = (r : EReal)) ∧ (∀ i, ∃ r : ℝ, a3 i = (r : EReal)) := by
  have e := congrFun h ix0
  dsimp only [fn, fn_part1] at e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨fun i => real_of_cmp a0 _ i (Host.reduce_andi_all _ _ _ _ _ h0 i),
    fun i => real_of_cmp a1 _ i (Host.reduce_andi_all _ _ _ _ _ h1 i),
    fun i => ne_zero_of_cmp a1 _ i (Host.reduce_andi_all _ _ _ _ _ h4 i),
    fun i => real_of_cmp a2 _ i (Host.reduce_andi_all _ _ _ _ _ h2 i),
    fun i => real_of_cmp a3 _ i (Host.reduce_andi_all _ _ _ _ _ h3 i)⟩

end Cert.Pre_finite_inputs.Decode

end
-- ==== Proof.LibRealLaw.lean ====
/-
  Extended reals that are real numbers, and the one law this certificate rests on.

  Both programs score a user against every point of interest by the inner product of the user's preference
  vector `u` (256 entries) with the point's region embedding `r`, scaled by `a`.  One program scales the
  preference vector first and then takes the inner product, `∑ k, (u k * a) * r k`; the other takes the inner
  product and scales the result, `a * ∑ k, u k * r k`.  On the extended reals a factor moves across a sum only
  when no term is infinite, so the law is stated for entries that are real numbers; it is then the ring identity
  `∑ k, (u k * a) * r k = a * ∑ k, u k * r k` in `ℝ`.

  The rest of the file says which operations keep an extended real a real number: products, sums over a finite
  index set, maxima, and the ideal quotient by a divisor that is at least one.
-/
import Idealize.ShloMosaic.PureOps.Ideal
import Idealize.ShloMosaic.PureOps.Ideal.Laws

noncomputable section

namespace Cert.Scores

open Idealize.ShloMosaic

/-- The extended real `x` is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The maximum of a real number and one is a real number that is not zero. -/
theorem max_one_eq (s : ℝ) : max (s : EReal) 1 = ((max s 1 : ℝ) : EReal) := by
  have h := (EReal.coe_strictMono.monotone).map_max (a := s) (b := (1 : ℝ))
  rw [h]; rfl

/-- The ideal quotient of a real number by the maximum of a real number and one is a real number: the divisor is
    a real number at least one, so it is not zero and the quotient is the product with its reciprocal. -/
theorem IsReal.div_max_one {x s : EReal} (hx : IsReal x) (hs : IsReal s) : IsReal (Ideal.div x (max s 1)) := by
  obtain ⟨s', rfl⟩ := hs
  rw [max_one_eq, Ideal.div_coe (ne_of_gt (lt_of_lt_of_le one_pos (le_max_right s' 1)))]
  exact hx.mul (isReal_coe _)

/-- THE LAW.  For real entries, scaling the first factor of every product by `a` scales the inner product by `a`. -/
theorem scaled_inner {n : Nat} (u r : Fin n → EReal) (a : EReal)
    (hu : ∀ k, IsReal (u k)) (hr : ∀ k, IsReal (r k)) (ha : IsReal a) :
    ∑ k : Fin n, (u k * a) * r k = a * ∑ k : Fin n, u k * r k := by
  choose u' hu' using hu
  choose r' hr' using hr
  obtain ⟨a', rfl⟩ := ha
  have hl : ∀ k : Fin n, (u k * (a' : EReal)) * r k = ((u' k * a' * r' k : ℝ) : EReal) := fun k => by
    rw [hu' k, hr' k, EReal.coe_mul, EReal.coe_mul]
  have hr2 : ∀ k : Fin n, u k * r k = ((u' k * r' k : ℝ) : EReal) := fun k => by
    rw [hu' k, hr' k, EReal.coe_mul]
  rw [Finset.sum_congr rfl fun k _ => hl k, Finset.sum_congr rfl fun k _ => hr2 k, ← coe_sum, ← coe_sum,
    ← EReal.coe_mul, Finset.mul_sum]
  exact congrArg _ (Finset.sum_congr rfl fun k _ => by ring)

end Cert.Scores

end
-- ==== Proof.LibBlockSums.lean ====
/-
  Two laws of finite sums in an additive commutative monoid (no finiteness of the values is needed, so they
  hold in the extended reals as they stand): a sum over n·b indices is the sum over the n blocks of the sums
  within each block, and an accumulator that adds one term per step holds the partial sum.
-/
import Idealize.ShloMosaic.PureOps.Ideal
import Mathlib.Algebra.BigOperators.Fin
import Mathlib.Logic.Equiv.Fin.Basic

open scoped BigOperators

namespace Cert.BlockSums

/-- The `j`-th index of block `t`, among `n` blocks of `b` indices each, is below `n * b`. -/
theorem blk_lt {n b : ℕ} (t : Fin n) (j : Fin b) : t.val * b + j.val < n * b :=
  calc t.val * b + j.val < t.val * b + b := Nat.add_lt_add_left j.isLt _
    _ = (t.val + 1) * b := (Nat.succ_mul _ _).symm
    _ ≤ n * b := Nat.mul_le_mul_right b t.isLt

/-- a sum over n·b indices is the sum over n blocks of the sums over each block's b indices -/
theorem sum_blocks {M : Type*} [AddCommMonoid M] (n b : ℕ) (f : Fin (n * b) → M) :
    ∑ i : Fin (n * b), f i = ∑ t : Fin n, ∑ j : Fin b, f ⟨t.val * b + j.val, blk_lt t j⟩ := by
  rw [← Equiv.sum_comp (finProdFinEquiv (m := n) (n := b)) f, Fintype.sum_prod_type]
  refine Finset.sum_congr rfl fun t _ => Finset.sum_congr rfl fun j _ => ?_
  refine congrArg f (Fin.ext ?_)
  show j.val + b * t.val = t.val * b + j.val
  rw [Nat.mul_comm, Nat.add_comm]

/-- 4096 indices are 8 blocks of 512. -/
theorem sum_blocks_4096 {M : Type*} [AddCommMonoid M] (f : Fin 4096 → M) :
    ∑ i : Fin 4096, f i = ∑ t : Fin 8, ∑ j : Fin 512, f ⟨t.val * 512 + j.val, by
      have := t.isLt; have := j.isLt; omega⟩ :=
  sum_blocks 8 512 f

/-- 16384 indices are 16 blocks of 1024. -/
theorem sum_blocks_16384 {M : Type*} [AddCommMonoid M] (f : Fin 16384 → M) :
    ∑ k : Fin 16384, f k = ∑ t : Fin 16, ∑ j : Fin 1024, f ⟨t.val * 1024 + j.val, by
      have := t.isLt; have := j.isLt; omega⟩ :=
  sum_blocks 16 1024 f

/-- an accumulator that starts at zero-plus-first-block and adds one block per step holds the sum of the blocks so far -/
theorem acc_eq_sum {M : Type*} [AddCommMonoid M] (p : ℕ → M) (acc : ℕ → M) (h0 : acc 0 = 0 + p 0)
    (hs : ∀ n, acc (n + 1) = acc n + p (n + 1)) (n : ℕ) :
    acc n = ∑ k ∈ Finset.range (n + 1), p k := by
  induction n with
  | zero => rw [h0, zero_add, Finset.sum_range_one]
  | succ n ih => rw [Finset.sum_range_succ _ (n + 1), hs, ih]

/-- after the last step the accumulator holds the sum of all the blocks -/
theorem acc_last {M : Type*} [AddCommMonoid M] (N : ℕ) (p : ℕ → M) (acc : ℕ → M) (h0 : acc 0 = 0 + p 0)
    (hs : ∀ n, acc (n + 1) = acc n + p (n + 1)) :
    acc N = ∑ t : Fin (N + 1), p t.val := by
  rw [acc_eq_sum p acc h0 hs N, Finset.sum_range]

end Cert.BlockSums
-- ==== Proof.Agree.lean ====
/-
  The two spellings of the Gaussian-kernel weighted mean agree on real inputs with nonzero bandwidth.

  Fix a row `n`.  With real inputs and `σ = sd n ≠ 0` every quantity of either spelling is a real number.

  * The tiled logit is `x k = Σ_d (q d · 2s) · t k d - s · ‖t k‖²` with `s = 1 / ((2σ)σ)`; the direct logit is
    `y k = -((‖q‖² + ‖t k‖²) - 2 q·t k) · (1 / (2 (σσ)))`, and `y k = x k - s ‖q‖²`: the two differ by a constant
    of the row.
  * Tiled side.  Writing the running state as `m`, `exp (-m) · S`, `exp (-m) · A`, one column block sends it to
    `m'`, `exp (-m') · (S + Σ exp x)`, `exp (-m') · (A + Σ exp x · w)`, because
    `exp (m - m') · exp (-m) = exp (-m')` and `exp (x - m') = exp (-m') · exp x`; the running maximum is only ever
    SOME real number.  After the sixteen blocks `S = Σ_k exp (x k)` and `A = Σ_k exp (x k) · w k` over all 16384
    columns, so the tiled result is `(exp (-m) · A) / (exp (-m) · S) = A / S`.
  * Direct side.  The row maximum is some real number `M`; the weights are `exp (y k - M) = exp (x k) · D` with
    `D = exp (-s‖q‖² - M) > 0`, their sum is `S · D`, and `Σ_k (exp (x k) · D / (S · D)) · w k = A / S`.

  `S > 0` because there is at least one column and every exponential is positive.
-/
import proofs.«103823_j66314295050701_2_alg».proof.Proof.Spec
import proofs.«103823_j66314295050701_2_alg».proof.Proof.LibRealLaw
import proofs.«103823_j66314295050701_2_alg».proof.Proof.LibBlockSums

noncomputable section

namespace Cert.KernelMean

open Idealize.ShloMosaic
open scoped BigOperators
open Cert.Scores (coe_sum)

/-! ### The float words, evaluated -/

theorem two_eq : two = ((2 : ℝ) : EReal) := by
  simp [two, Ideal.ofBits, Ideal.ieee, -EReal.coe_mul]; norm_num

theorem one_eq : one = ((1 : ℝ) : EReal) := by
  simp [one, Ideal.ofBits, Ideal.ieee, -EReal.coe_mul]; norm_num

theorem zero_eq : zero = 0 := by
  simp [zero, Ideal.ofBits, Ideal.ieee]

theorem negInf_eq : negInf = ⊥ := by
  simp [negInf, Ideal.ofBits, Ideal.ieee]

/-- The starting value of the running maximum is a real number (its value is never used). -/
theorem floor0_real : ∃ r : ℝ, floor0 = (r : EReal) := by
  have h : floor0 = -(((11744050 * 2 ^ 104 : ℝ)) : EReal) := by
    simp [floor0, Ideal.ofBits, Ideal.ieee, -EReal.coe_mul]
  exact ⟨-(11744050 * 2 ^ 104), h.trans (EReal.coe_neg _).symm⟩

/-! ### Maxima of real numbers stay real -/

/-- A fold of `max` from `⊥` over real values is `⊥` or a real number. -/
theorem fold_max_real {ι : Type} (s : Finset ι) (x : ι → ℝ) :
    s.fold max (⊥ : EReal) (fun k => (x k : EReal)) = ⊥ ∨
      ∃ r : ℝ, s.fold max (⊥ : EReal) (fun k => (x k : EReal)) = (r : EReal) := by
  classical
  induction s using Finset.induction_on with
  | empty => left; exact Finset.fold_empty
  | insert a s ha ih =>
    right
    rw [Finset.fold_insert ha]
    rcases ih with h | ⟨r, h⟩
    · exact ⟨x a, by rw [h, max_bot_right]⟩
    · exact ⟨max (x a) r, by rw [h]; exact ((EReal.coe_strictMono.monotone).map_max).symm⟩

/-- The maximum of a real number and such a fold is a real number. -/
theorem max_coe_fold_real {ι : Type} (s : Finset ι) (x : ι → ℝ) (m : ℝ) :
    ∃ r : ℝ, max (m : EReal) (s.fold max (⊥ : EReal) (fun k => (x k : EReal))) = (r : EReal) := by
  rcases fold_max_real s x with h | ⟨r, h⟩
  · exact ⟨m, by rw [h, max_bot_right]⟩
  · exact ⟨max m r, by rw [h]; exact ((EReal.coe_strictMono.monotone).map_max).symm⟩

/-- Over all 16384 columns the fold of `max` from `⊥` is a real number: there is a column. -/
theorem max_bot_fold_univ_real (x : Fin 16384 → ℝ) :
    ∃ r : ℝ, max (⊥ : EReal) ((Finset.univ : Finset (Fin 16384)).fold max (⊥ : EReal) (fun k => (x k : EReal)))
      = (r : EReal) := by
  rcases fold_max_real (Finset.univ : Finset (Fin 16384)) x with h | ⟨r, h⟩
  · exfalso
    have h0 : ((x ⟨0, by norm_num⟩ : ℝ) : EReal)
        ≤ (Finset.univ : Finset (Fin 16384)).fold max (⊥ : EReal) (fun k => (x k : EReal)) :=
      (Finset.le_fold_max _).mpr (Or.inr ⟨⟨0, by norm_num⟩, Finset.mem_univ _, le_rfl⟩)
    rw [h] at h0
    exact absurd h0 (not_le.mpr (EReal.bot_lt_coe _))
  · exact ⟨r, by rw [h, max_bot_left]⟩

/-! ### The real identities behind one block of the running sums -/

theorem real_step_l {ι : Type} (s : Finset ι) (y : ι → ℝ) (m m' S : ℝ) :
    Real.exp (m - m') * (Real.exp (-m) * S) + ∑ k ∈ s, Real.exp (y k - m')
      = Real.exp (-m') * (S + ∑ k ∈ s, Real.exp (y k)) := by
  have h1 : Real.exp (m - m') * Real.exp (-m) = Real.exp (-m') := by
    rw [← Real.exp_add]; congr 1; ring
  have h2 : ∀ k, Real.exp (y k - m') = Real.exp (-m') * Real.exp (y k) := fun k => by
    rw [← Real.exp_add]; congr 1; ring
  rw [← mul_assoc, h1, mul_add, Finset.mul_sum]
  congr 1
  exact Finset.sum_congr rfl fun k _ => h2 k

theorem real_step_a {ι : Type} (s : Finset ι) (y w : ι → ℝ) (m m' A : ℝ) :
    Real.exp (m - m') * (Real.exp (-m) * A) + ∑ k ∈ s, Real.exp (y k - m') * w k
      = Real.exp (-m') * (A + ∑ k ∈ s, Real.exp (y k) * w k) := by
  have h1 : Real.exp (m - m') * Real.exp (-m) = Real.exp (-m') := by
    rw [← Real.exp_add]; congr 1; ring
  have h2 : ∀ k, Real.exp (y k - m') * w k = Real.exp (-m') * (Real.exp (y k) * w k) := fun k => by
    rw [← mul_assoc, ← Real.exp_add]; congr 2; ring
  rw [← mul_assoc, h1, mul_add, Finset.mul_sum]
  congr 1
  exact Finset.sum_congr rfl fun k _ => h2 k

/-! ### One column block, and the sixteen of them -/

section Tiled

variable (q : Fin 4096 → Fin 256 → EReal) (sd : Fin 4096 → EReal) (src tgt : Fin 16384 → Fin 256 → EReal)
variable (n : Fin 4096) (x : Fin 16384 → ℝ) (W : Fin 16384 → Fin 256 → ℝ)

/-- If the running state is `m`, `exp (-m) · S`, `exp (-m) · A` for real numbers `m`, `S`, `A e`, then after column
    block `j` it is `m'`, `exp (-m') · (S + Σ exp x)`, `exp (-m') · (A + Σ exp x · w)` for a real number `m'`, the sums
    over the block's 1024 columns: the rescaling by `exp (m - m')` turns `exp (-m)` into `exp (-m')`. -/
theorem step_inv (hx : ∀ k, logit q sd tgt n k = (x k : EReal)) (hw : ∀ k e, src k e = (W k e : EReal))
    (j : Fin 16) (s : St) (m S : ℝ) (A : Fin 256 → ℝ)
    (hm : s.m = (m : EReal)) (hl : s.l = ((Real.exp (-m) * S : ℝ) : EReal))
    (ha : ∀ e, s.a e = ((Real.exp (-m) * A e : ℝ) : EReal)) :
    ∃ m' : ℝ, (step q sd src tgt n j s).m = (m' : EReal)
      ∧ (step q sd src tgt n j s).l
          = ((Real.exp (-m') * (S + ∑ k : Fin 1024, Real.exp (x (col j k))) : ℝ) : EReal)
      ∧ ∀ e, (step q sd src tgt n j s).a e
          = ((Real.exp (-m') * (A e + ∑ k : Fin 1024, Real.exp (x (col j k)) * W (col j k) e) : ℝ) : EReal) := by
  have hfun : (fun k : Fin 1024 => logit q sd tgt n (col j k)) = fun k => ((x (col j k) : ℝ) : EReal) :=
    funext fun k => hx _
  obtain ⟨m', hm'⟩ := max_coe_fold_real (Finset.univ : Finset (Fin 1024)) (fun k => x (col j k)) m
  have hM : max s.m ((Finset.univ : Finset (Fin 1024)).fold max negInf (fun k => logit q sd tgt n (col j k)))
      = (m' : EReal) := by
    rw [hm, negInf_eq, hfun]; exact hm'
  refine ⟨m', hM, ?_, fun e => ?_⟩
  · simp only [step]
    rw [hM, hm, hl]
    simp only [hx, ← EReal.coe_sub, Ideal.exp_coe, ← EReal.coe_mul, ← coe_sum, ← EReal.coe_add]
    exact congrArg _ (real_step_l _ _ _ _ _)
  · simp only [step]
    rw [hM, hm, ha e]
    simp only [hx, hw, ← EReal.coe_sub, Ideal.exp_coe, ← EReal.coe_mul, ← coe_sum, ← EReal.coe_add]
    exact congrArg _ (real_step_a _ _ _ _ _ _)

/-- After column blocks `0 … j` the state is `m`, `exp (-m) · Σ exp x`, `exp (-m) · Σ exp x · w` for a real number
    `m`, the sums over the columns of those blocks. -/
theorem run_inv (hx : ∀ k, logit q sd tgt n k = (x k : EReal)) (hw : ∀ k e, src k e = (W k e : EReal)) (j : ℕ) :
    ∃ m : ℝ, (run q sd src tgt n j).m = (m : EReal)
      ∧ (run q sd src tgt n j).l
          = ((Real.exp (-m) * ∑ t ∈ Finset.range (j + 1), ∑ k : Fin 1024, Real.exp (x (col (blk t) k)) : ℝ) : EReal)
      ∧ ∀ e, (run q sd src tgt n j).a e
          = ((Real.exp (-m) * ∑ t ∈ Finset.range (j + 1),
                ∑ k : Fin 1024, Real.exp (x (col (blk t) k)) * W (col (blk t) k) e : ℝ) : EReal) := by
  induction j with
  | zero =>
    obtain ⟨f, hf⟩ := floor0_real
    obtain ⟨m', h1, h2, h3⟩ := step_inv q sd src tgt n x W hx hw (blk 0) init f 0 (fun _ => 0) hf
      (by show zero = _; rw [zero_eq, mul_zero]; rfl) (fun e => by show zero = _; rw [zero_eq, mul_zero]; rfl)
    refine ⟨m', h1, ?_, fun e => ?_⟩
    · rw [Finset.sum_range_one, ← zero_add (∑ k : Fin 1024, Real.exp (x (col (blk 0) k)))]; exact h2
    · rw [Finset.sum_range_one,
        ← zero_add (∑ k : Fin 1024, Real.exp (x (col (blk 0) k)) * W (col (blk 0) k) e)]; exact h3 e
  | succ j ih =>
    obtain ⟨m, g1, g2, g3⟩ := ih
    obtain ⟨m', h1, h2, h3⟩ := step_inv q sd src tgt n x W hx hw (blk (j + 1)) (run q sd src tgt n j) m _ _ g1 g2 g3
    refine ⟨m', h1, ?_, fun e => ?_⟩
    · rw [Finset.sum_range_succ _ (j + 1)]; exact h2
    · rw [Finset.sum_range_succ _ (j + 1)]; exact h3 e

/-- Sixteen blocks of 1024 columns are the 16384 columns. -/
theorem sum_range_blk (g : Fin 16384 → ℝ) :
    ∑ t ∈ Finset.range 16, ∑ k : Fin 1024, g (col (blk t) k) = ∑ k : Fin 16384, g k := by
  rw [Cert.BlockSums.sum_blocks_16384 g, Finset.sum_range]
  refine Finset.sum_congr rfl fun t _ => Finset.sum_congr rfl fun k _ => congrArg g (Fin.ext ?_)
  show (t.val % 16) * 1024 + k.val = t.val * 1024 + k.val
  rw [Nat.mod_eq_of_lt t.isLt]

end Tiled

/-! ### The two logits as real numbers: they differ by a row constant -/

/-- `s = 1 / ((2 σ) σ)`. -/
def sR (σ : ℝ) : ℝ := 1 / ((2 * σ) * σ)

/-- The tiled program's logit over the reals. -/
def xR (Q : Fin 256 → ℝ) (σ : ℝ) (T : Fin 16384 → Fin 256 → ℝ) (k : Fin 16384) : ℝ :=
  (∑ d : Fin 256, (Q d * (2 * sR σ)) * T k d) - sR σ * ∑ d : Fin 256, T k d * T k d

/-- The direct program's logit over the reals. -/
def yR (Q : Fin 256 → ℝ) (σ : ℝ) (T : Fin 16384 → Fin 256 → ℝ) (k : Fin 16384) : ℝ :=
  (-(((∑ d : Fin 256, Q d * Q d) + ∑ d : Fin 256, T k d * T k d) - 2 * ∑ d : Fin 256, Q d * T k d))
    * (1 / (2 * (σ * σ)))

/-- The direct logit is the tiled logit minus the row constant `s ‖q‖²`. -/
theorem yR_eq (Q : Fin 256 → ℝ) (σ : ℝ) (T : Fin 16384 → Fin 256 → ℝ) (k : Fin 16384) (h : σ ≠ 0) :
    yR Q σ T k = xR Q σ T k - sR σ * ∑ d : Fin 256, Q d * Q d := by
  unfold yR xR sR
  have h1 : ∀ d : Fin 256, (Q d * (2 * (1 / ((2 * σ) * σ)))) * T k d = (2 * (1 / ((2 * σ) * σ))) * (Q d * T k d) :=
    fun d => by ring
  rw [Finset.sum_congr rfl fun d _ => h1 d, ← Finset.mul_sum]
  field_simp
  ring

section Coe

variable (Q : Fin 4096 → Fin 256 → ℝ) (σ : Fin 4096 → ℝ) (T : Fin 16384 → Fin 256 → ℝ)

theorem scale_coe (n : Fin 4096) (h : σ n ≠ 0) :
    scale (fun n => (σ n : EReal)) n = ((sR (σ n) : ℝ) : EReal) := by
  have hne : (2 * σ n) * σ n ≠ 0 := mul_ne_zero (mul_ne_zero two_ne_zero h) h
  simp only [scale]
  rw [two_eq, one_eq, ← EReal.coe_mul, ← EReal.coe_mul, Ideal.div_coe hne, ← EReal.coe_mul, one_mul]
  rfl

theorem logit_coe (n : Fin 4096) (h : σ n ≠ 0) (k : Fin 16384) :
    logit (fun n d => (Q n d : EReal)) (fun n => (σ n : EReal)) (fun k d => (T k d : EReal)) n k
      = ((xR (Q n) (σ n) T k : ℝ) : EReal) := by
  simp only [logit, qs, tsq]
  rw [scale_coe σ n h, two_eq, zero_eq, zero_add]
  simp only [← EReal.coe_mul, ← coe_sum, ← EReal.coe_sub]
  rfl

theorem refLogit_coe (n : Fin 4096) (h : σ n ≠ 0) (k : Fin 16384) :
    refLogit (fun n d => (Q n d : EReal)) (fun n => (σ n : EReal)) (fun k d => (T k d : EReal)) n k
      = ((yR (Q n) (σ n) T k : ℝ) : EReal) := by
  have hne : 2 * (σ n * σ n) ≠ 0 := mul_ne_zero two_ne_zero (mul_ne_zero h h)
  simp only [refLogit, dist, qsq, tsq, cross]
  rw [two_eq, zero_eq, zero_add, zero_add]
  simp only [← EReal.coe_mul, ← coe_sum, ← EReal.coe_add, ← EReal.coe_sub, ← EReal.coe_neg]
  rw [Ideal.div_coe hne, ← EReal.coe_mul]
  rfl

end Coe

/-! ### The last step over the reals: a common positive factor cancels -/

theorem cancel_ker (E A S : ℝ) (hE : E ≠ 0) (hS : S ≠ 0) : E * A * (1 / (E * S)) = A * (1 / S) := by
  field_simp

theorem cancel_ref (a D S w : ℝ) (hD : D ≠ 0) (hS : S ≠ 0) : a * D * (1 / (S * D)) * w = (a * w) * (1 / S) := by
  field_simp

theorem real_final (x y w : Fin 16384 → ℝ) (c m M : ℝ) (hy : ∀ k, y k = x k - c) :
    Real.exp (-m) * (∑ k : Fin 16384, Real.exp (x k) * w k) * (1 / (Real.exp (-m) * ∑ k : Fin 16384, Real.exp (x k)))
      = ∑ k : Fin 16384, Real.exp (y k - M) * (1 / ∑ k : Fin 16384, Real.exp (y k - M)) * w k := by
  have hS : (0 : ℝ) < ∑ k : Fin 16384, Real.exp (x k) :=
    Finset.sum_pos (fun k _ => Real.exp_pos _) ⟨⟨0, by norm_num⟩, Finset.mem_univ _⟩
  have hD : ∀ k, Real.exp (y k - M) = Real.exp (x k) * Real.exp (-c - M) := fun k => by
    rw [hy, ← Real.exp_add]; congr 1; ring
  simp only [hD]
  rw [← Finset.sum_mul, cancel_ker _ _ _ (Real.exp_pos _).ne' hS.ne',
    Finset.sum_congr rfl fun k _ => cancel_ref (Real.exp (x k)) _ _ (w k) (Real.exp_pos (-c - M)).ne' hS.ne',
    ← Finset.sum_mul]

/-! ### The two results over the reals -/

section Results

variable (q : Fin 4096 → Fin 256 → EReal) (sd : Fin 4096 → EReal) (src tgt : Fin 16384 → Fin 256 → EReal)
variable (n : Fin 4096) (W : Fin 16384 → Fin 256 → ℝ)

/-- The tiled result is `(exp (-m) · Σ exp x · w) / (exp (-m) · Σ exp x)` for a real number `m`, the sums over all
    16384 columns. -/
theorem kerOut_real (x : Fin 16384 → ℝ) (hx : ∀ k, logit q sd tgt n k = (x k : EReal))
    (hw : ∀ k e, src k e = (W k e : EReal)) (e : Fin 256) :
    ∃ m : ℝ, kerOut q sd src tgt n e
      = ((Real.exp (-m) * (∑ k : Fin 16384, Real.exp (x k) * W k e)
          * (1 / (Real.exp (-m) * ∑ k : Fin 16384, Real.exp (x k))) : ℝ) : EReal) := by
  obtain ⟨m, -, hl, ha⟩ := run_inv q sd src tgt n x W hx hw 15
  have hS : (0 : ℝ) < ∑ k : Fin 16384, Real.exp (x k) :=
    Finset.sum_pos (fun k _ => Real.exp_pos _) ⟨⟨0, by norm_num⟩, Finset.mem_univ _⟩
  have hl' : (run q sd src tgt n 15).l = ((Real.exp (-m) * ∑ k : Fin 16384, Real.exp (x k) : ℝ) : EReal) := by
    rw [hl]
    exact congrArg (fun z : ℝ => ((Real.exp (-m) * z : ℝ) : EReal)) (sum_range_blk (fun k => Real.exp (x k)))
  have ha' : (run q sd src tgt n 15).a e
      = ((Real.exp (-m) * ∑ k : Fin 16384, Real.exp (x k) * W k e : ℝ) : EReal) := by
    rw [ha e]
    exact congrArg (fun z : ℝ => ((Real.exp (-m) * z : ℝ) : EReal))
      (sum_range_blk (fun k => Real.exp (x k) * W k e))
  refine ⟨m, ?_⟩
  show Ideal.div ((run q sd src tgt n 15).a e) ((run q sd src tgt n 15).l) = _
  rw [ha', hl', Ideal.div_coe (mul_ne_zero (Real.exp_pos _).ne' hS.ne'), ← EReal.coe_mul]

/-- The direct result is `Σ (exp (y - M) / Σ exp (y - M)) · w` for a real number `M`. -/
theorem refOut_real (y : Fin 16384 → ℝ) (hy : ∀ k, refLogit q sd tgt n k = (y k : EReal))
    (hw : ∀ k e, src k e = (W k e : EReal)) (e : Fin 256) :
    ∃ M : ℝ, refOut q sd src tgt n e
      = ((∑ k : Fin 16384, Real.exp (y k - M) * (1 / ∑ k : Fin 16384, Real.exp (y k - M)) * W k e : ℝ) : EReal) := by
  have hR : refLogit q sd tgt n = fun k => ((y k : ℝ) : EReal) := funext hy
  obtain ⟨M, hM⟩ : ∃ M : ℝ, refMax q sd tgt n = (M : EReal) := by
    have h0 : refMax q sd tgt n
        = max negInf ((Finset.univ : Finset (Fin 16384)).fold max negInf (refLogit q sd tgt n)) := rfl
    rw [h0, hR, negInf_eq]
    exact max_bot_fold_univ_real y
  have hE : ∀ k, refE q sd tgt n k = ((Real.exp (y k - M) : ℝ) : EReal) := fun k => by
    show Ideal.exp (refLogit q sd tgt n k - refMax q sd tgt n) = _
    rw [hy, hM, ← EReal.coe_sub, Ideal.exp_coe]
  have hL0 : (0 : ℝ) < ∑ k : Fin 16384, Real.exp (y k - M) :=
    Finset.sum_pos (fun k _ => Real.exp_pos _) ⟨⟨0, by norm_num⟩, Finset.mem_univ _⟩
  have hL : refL q sd tgt n = ((∑ k : Fin 16384, Real.exp (y k - M) : ℝ) : EReal) := by
    show zero + ∑ k : Fin 16384, refE q sd tgt n k = _
    rw [zero_eq, zero_add, coe_sum]
    exact Finset.sum_congr rfl fun k _ => hE k
  refine ⟨M, ?_⟩
  show ∑ k : Fin 16384, Ideal.div (refE q sd tgt n k) (refL q sd tgt n) * src k e = _
  rw [coe_sum]
  refine Finset.sum_congr rfl fun k _ => ?_
  rw [hE, hL, hw, Ideal.div_coe hL0.ne', ← EReal.coe_mul, ← EReal.coe_mul]

end Results

/-! ### The two spellings agree -/

theorem kerOut_eq_refOut
    (q : Fin 4096 → Fin 256 → EReal) (sd : Fin 4096 → EReal) (src tgt : Fin 16384 → Fin 256 → EReal)
    (hq : ∀ n d, ∃ r : ℝ, q n d = (r : EReal)) (hsd : ∀ n, ∃ r : ℝ, sd n = (r : EReal)) (hsd0 : ∀ n, sd n ≠ 0)
    (hsrc : ∀ k e, ∃ r : ℝ, src k e = (r : EReal)) (htgt : ∀ k d, ∃ r : ℝ, tgt k d = (r : EReal))
    (n : Fin 4096) (e : Fin 256) :
    kerOut q sd src tgt n e = refOut q sd src tgt n e := by
  choose Q hQ using hq
  choose σ hσ using hsd
  choose W hW using hsrc
  choose T hT using htgt
  have eq : q = fun n d => (Q n d : EReal) := funext fun n => funext fun d => hQ n d
  have esd : sd = fun n => (σ n : EReal) := funext hσ
  have et : tgt = fun k d => (T k d : EReal) := funext fun k => funext fun d => hT k d
  have hσ0 : σ n ≠ 0 := fun h => hsd0 n (by rw [hσ n, h]; rfl)
  have hx : ∀ k, logit q sd tgt n k = ((xR (Q n) (σ n) T k : ℝ) : EReal) := fun k => by
    rw [eq, esd, et]; exact logit_coe Q σ T n hσ0 k
  have hy : ∀ k, refLogit q sd tgt n k = ((yR (Q n) (σ n) T k : ℝ) : EReal) := fun k => by
    rw [eq, esd, et]; exact refLogit_coe Q σ T n hσ0 k
  obtain ⟨m, hk⟩ := kerOut_real q sd src tgt n W _ hx hW e
  obtain ⟨M, hr⟩ := refOut_real q sd src tgt n W _ hy hW e
  rw [hk, hr]
  exact congrArg _ (real_final _ _ (fun k => W k e) _ m M (fun k => yR_eq (Q n) (σ n) T k hσ0))

end Cert.KernelMean

end
-- ==== Proof.Bridge.lean ====
/-
  The two results are one array.

  From memories that agree on the four arguments, with the precondition on the kernel's (every entry of every
  argument finite, every bandwidth nonzero): the direct program's result is its spelling `refOut` of the arguments;
  on real arguments with nonzero bandwidths the tiled spelling `kerOut` equals it (the softmax weights are
  invariant under the row-constant shift `s ‖q‖²` of the logits and under the choice of the subtracted maximum,
  and dividing the weighted sum once is dividing every weight); and `kerOut` of the arguments is the array the
  kernel ends with.
-/
import proofs.«103823_j66314295050701_2_alg».proof.Defs
import proofs.«103823_j66314295050701_2_alg».proof.Proof.Args
import proofs.«103823_j66314295050701_2_alg».proof.Proof.RefValue
import proofs.«103823_j66314295050701_2_alg».proof.Proof.PreReal
import proofs.«103823_j66314295050701_2_alg».proof.Proof.Agree

noncomputable section

namespace Cert.Proof.Bridge

open Idealize.ShloMosaic Idealize.ShloMosaic.TcCoe Idealize.ShloMosaic.ValueIdx Idealize.SL.Sem

/-- The direct program's result term, of a memory agreeing with the kernel's on the arguments, is the kernel's result array. -/
theorem result_eq [hPre : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (c : Dev Cert.KernelIdeal.nD) :
    Cert.ReferenceIdeal.Value.res_main_v32 m' c = Cert.KernelIdeal.Args.result m c := by
  rw [Cert.ReferenceIdeal.Read.val_main_v32_eq, (hagree c).1, (hagree c).2.1, (hagree c).2.2.1, (hagree c).2.2.2]
  obtain ⟨h0, h1, h10, h2, h3⟩ := Cert.Pre_finite_inputs.Decode.reals_of_pre _ _ _ _ (hpre c)
  funext i
  obtain ⟨n, e, rfl⟩ : ∃ (n : Fin 4096) (e : Fin 256), i = ix2 n e := ⟨i 0, i 1, eq_ix2 i⟩
  rw [Cert.ReferenceIdeal.RefValue.ref_eq, Cert.KernelIdeal.Args.result_ix2]
  exact (Cert.KernelMean.kerOut_eq_refOut _ _ _ _ (fun n d => h0 (ix2 n d)) (fun n => h1 (ix1 n)) (fun n => h10 (ix1 n))
    (fun k e => h2 (ix2 k e)) (fun k d => h3 (ix2 k d)) n e).symm

end Cert.Proof.Bridge

end
-- ==== Proof.lean ====
/-
  A Gaussian-kernel weighted mean (Nadaraya–Watson regression) computed in tiles against its direct computation.

  Row `n` of the result is the mean of the source rows weighted by the softmax, over the 16384 database rows `k`, of
  the logits `-‖q n - t k‖² / (2 σ n ²)`. The direct program expands the squared distance, divides by `2 σ²`,
  normalises the softmax entry by entry and takes the weighted sum. The tiled program pre-scales the queries by
  `2 s`, `s = 1 / (2 σ σ)`, drops the row-constant term `s ‖q‖²` of the logit, and folds the columns in 16 blocks of
  1024 through a running maximum, normaliser and weighted sum (rescaled by `exp (m_old - m_new)` per block), dividing
  once at the end; its running maximum starts from a large negative FINITE number, which only ever needs to be a real.

  On the extended reals the two agree wherever every argument entry is finite and every bandwidth `σ n` is nonzero —
  the precondition: at `σ = 0` both programs divide by zero, and differently. The proof: the reference's run is its
  spelling `refOut` (RefValue); the kernel's run ends at `kerOut` (Pieces, BlockAt, BlockStep, PointStep, InvCore,
  HostIn, Blocks, Invariant, KernelRun); the precondition makes the arguments real with `σ ≠ 0` (PreReal); and there
  `kerOut = refOut` (Agree): shift invariance of the softmax weights and one division in place of 16384. The three
  frames are the programs' own runs; the idealized kernel is the kernel's text read at the ideal instance, so nothing
  is owed for it.
-/
import proofs.«103823_j66314295050701_2_alg».proof.Defs
import proofs.«103823_j66314295050701_2_alg».proof.Proof.Gen.Kernel
import proofs.«103823_j66314295050701_2_alg».proof.Proof.Gen.Kernel.Skeleton
import proofs.«103823_j66314295050701_2_alg».proof.Proof.Gen.Kernel.Launch
import proofs.«103823_j66314295050701_2_alg».proof.Proof.Gen.Kernel.Points
import proofs.«103823_j66314295050701_2_alg».proof.Proof.Gen.Kernel.Frame
import proofs.«103823_j66314295050701_2_alg».proof.Proof.Gen.KernelIdeal
import proofs.«103823_j66314295050701_2_alg».proof.Proof.Gen.KernelIdeal.Skeleton
import proofs.«103823_j66314295050701_2_alg».proof.Proof.Gen.KernelIdeal.Launch
import proofs.«103823_j66314295050701_2_alg».proof.Proof.Gen.KernelIdeal.Points
import proofs.«103823_j66314295050701_2_alg».proof.Proof.Gen.KernelIdeal.Frame
import proofs.«103823_j66314295050701_2_alg».proof.Proof.Gen.ReferenceIdeal
import proofs.«103823_j66314295050701_2_alg».proof.Proof.Gen.Pre_finite_inputs
import proofs.«103823_j66314295050701_2_alg».proof.Proof.Gen.KernelIdeal.Value
import proofs.«103823_j66314295050701_2_alg».proof.Proof.Gen.ReferenceIdeal.Run
import proofs.«103823_j66314295050701_2_alg».proof.Proof.Gen.ReferenceIdeal.Read
import proofs.«103823_j66314295050701_2_alg».proof.Proof.KernelRun
import proofs.«103823_j66314295050701_2_alg».proof.Proof.Bridge
import Idealize.ShloMosaic.Adequacy
import Idealize.ShloMosaic.Init

noncomputable section

namespace Cert.Proof

open Idealize.ShloMosaic Idealize.SL.Sem Cert.Kernel

/-- The kernel as printed runs, and leaves its arguments as they were. -/
theorem frame_kernel : Cert.frame_Kernel := fun m ρ _ => Cert.Kernel.Gen.frame m ρ

/-- So does its reading at the ideal instance. -/
theorem frame_kernelIdeal : Cert.frame_KernelIdeal := fun m ρ _ => Cert.KernelIdeal.Gen.frame m ρ

/-- The direct program's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no rewrite to account for. -/
theorem preserves : Cert.preserves_Kernel_KernelIdeal := trivial

/-- Both programs end at one array: the kernel's run at the tiled spelling of the weighted mean, the direct program's
    at its own spelling, equal on real arguments with nonzero bandwidths. -/
theorem algebraic : Cert.algebraic_KernelIdeal_ReferenceIdeal := by
  intro m ρ m' ρ' hpre hagree
  refine ⟨fun c => Cert.KernelIdeal.Args.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  exact Cert.Proof.Bridge.result_eq m m' hpre hagree c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
